-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x8192 : Shape := ⟨2, ![2048, 8192]⟩
abbrev S8192x2048 : Shape := ⟨2, ![8192, 2048]⟩
abbrev S4x2048 : Shape := ⟨2, ![4, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S2048x8192 .f32) (main_arg5 : FVec F S8192x2048 .f32) (main_arg6 : FVec F S2048x8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048x8192 .f32 := Host.absf main_arg6
  let main_cst_10 : FVec F S_ .f32 := constant S_ .f32 0x7F800000#32
  let main_v30 : FVec F S2048x8192 .f32 := broadcastInDim S2048x8192 ![] bcast_S_S2048x8192 main_cst_10
  let main_v31 : IVec S2048x8192 1 := cmpf .olt main_v29 main_v30
  let main_c_11 : IVec S_ 1 := constantI S_ 1 1#1
  let main_v32 : IVec S_ 1 := (fun x v => Host.reduce IntOp.andi x v reducesTo_S2048x8192_S_d0_1 h_S_) main_v31 main_c_11
  let main_v33 : IVec S_ 1 := andi main_v28 main_v32
  main_v33

def fn {F : FTy → Type} [FloatOps F] (main_arg0 : FVec F S4x2048x2048 .f32) (main_arg1 : FVec F S2048x8192 .f32) (main_arg2 : FVec F S8192x2048 .f32) (main_arg3 : FVec F S2048x8192 .f32) (main_arg4 : FVec F S2048x8192 .f32) (main_arg5 : FVec F S8192x2048 .f32) (main_arg6 : FVec F S2048x8192 .f32) (main_arg7 : IVec S4x2048 1) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S4x2048x2048 : Shape := ⟨3, ![4, 2048, 2048]⟩
abbrev S2048x8192 : Shape := ⟨2, ![2048, 8192]⟩
abbrev S8192x2048 : Shape := ⟨2, ![8192, 2048]⟩
abbrev S4x2048 : Shape := ⟨2, ![4, 2048]⟩
abbrev S8192x1 : Shape := ⟨2, ![8192, 1]⟩
abbrev S512x2048 : Shape := ⟨2, ![512, 2048]⟩
abbrev S2048x256 : Shape := ⟨2, ![2048, 256]⟩
abbrev S256x2048 : Shape := ⟨2, ![256, 2048]⟩
abbrev S512x1 : Shape := ⟨2, ![512, 1]⟩
abbrev S512x256 : Shape := ⟨2, ![512, 256]⟩

abbrev nBuf : Space → Nat
  | .hbm => 20
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192x2048, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S4x2048, .i1⟩
  | .hbm, ⟨8, _⟩ => ⟨S8192x2048, .f32⟩
  | .hbm, ⟨9, _⟩ => ⟨S8192x2048, .bf16⟩
  | .hbm, ⟨10, _⟩ => ⟨S2048x8192, .bf16⟩
  | .hbm, ⟨11, _⟩ => ⟨S2048x8192, .bf16⟩
  | .hbm, ⟨12, _⟩ => ⟨S2048x8192, .bf16⟩
  | .hbm, ⟨13, _⟩ => ⟨S2048x8192, .bf16⟩
  | .hbm, ⟨14, _⟩ => ⟨S8192x2048, .bf16⟩
  | .hbm, ⟨15, _⟩ => ⟨S8192x2048, .bf16⟩
  | .hbm, ⟨16, _⟩ => ⟨S8192x1, .i1⟩
  | .hbm, ⟨17, _⟩ => ⟨S8192x1, .f32⟩
  | .hbm, ⟨18, _⟩ => ⟨S8192x2048, .f32⟩
  | .hbm, ⟨19, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S512x1, .f32⟩
  | .local _ .vmem, ⟨15, _⟩ => ⟨S512x1, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v45 : BitVec 1 := Scalar.cmpi .eq arg1 c31_i32
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S4x2048x2048_S8192x2048 : S4x2048x2048.ShapeCasts S8192x2048
  bitsLt_bf16_f32 : FTy.bits .bf16 < FTy.bits .f32
  shapeCasts_S4x2048_S8192x1 : S4x2048.ShapeCasts S8192x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S512x1_S512x256 : S512x1.Broadcasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S8192x2048_S4x2048x2048 : S8192x2048.ShapeCasts S4x2048x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x8192.size a
  hwx0_1 : ∀ i : grid0.Coords, EltTy.bits .bf16 = 32 ∨ (Rect.block (s := S2048x8192) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x8192.size a
  hwx0_2 : ∀ i : grid0.Coords, EltTy.bits .bf16 = 32 ∨ (Rect.block (s := S2048x8192) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x8192.size a
  hwx0_3 : ∀ i : grid0.Coords, EltTy.bits .bf16 = 32 ∨ (Rect.block (s := S2048x8192) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x8192.size a
  hwx0_4 : ∀ i : grid0.Coords, EltTy.bits .bf16 = 32 ∨ (Rect.block (s := S2048x8192) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .bf16 = 32 ∨ (Rect.block (s := S8192x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .bf16 = 32 ∨ (Rect.block (s := S8192x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S8192x2048.size a
  hwx0_8 : ∀ i : grid0.Coords, EltTy.bits .f32 = 32 ∨ (Rect.block (s := S8192x2048) S512x2048.size (cc0_transform_8 i) (hinb0_8 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S512x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S2048x8192 : Shape := ⟨2, ![2048, 8192]⟩
abbrev S8192x2048 : Shape := ⟨2, ![8192, 2048]⟩
abbrev S4x2048 : Shape := ⟨2, ![4, 2048]⟩
abbrev S8192 : Shape := ⟨1, ![8192]⟩
abbrev S8192x1 : Shape := ⟨2, ![8192, 1]⟩
abbrev S8192x8192 : Shape := ⟨2, ![8192, 8192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192x2048, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S4x2048, .i1⟩
  | .hbm, ⟨8, _⟩ => ⟨S8192x2048, .f32⟩
  | .hbm, ⟨9, _⟩ => ⟨S8192, .i1⟩
  | .hbm, ⟨10, _⟩ => ⟨S8192x1, .i1⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x2048, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x2048, .f32⟩
  | .hbm, ⟨37, _⟩ => ⟨S8192x2048, .i1⟩
  | .hbm, ⟨38, _⟩ => ⟨S8192x2048, .f32⟩
  | .hbm, ⟨39, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call2_v0 : Ref sig .tc := ⟨.hbm, 37, rfl⟩
abbrev main_v13 : Ref sig .tc := ⟨.hbm, 38, rfl⟩
abbrev main_v14 : Ref sig .tc := ⟨.hbm, 39, rfl⟩

abbrev nD : Nat := 1
abbrev τ : Topo := Topo.v7x

variable {F : FTy → Type} [FloatOps F]

class Facts₀ : Prop where
  shapeCasts_S4x2048x2048_S8192x2048 : S4x2048x2048.ShapeCasts S8192x2048
  shapeCasts_S4x2048_S8192 : S4x2048.ShapeCasts S8192
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x2048_0_1 : S8192x1.BroadcastsInDim S8192x2048 (![0, 1] : Fin 2 → Fin S8192x2048.rank)
  shapeCasts_S8192x2048_S4x2048x2048 : S8192x2048.ShapeCasts S4x2048x2048
  dot_S8192x2048_S2048x8192_S8192x8192_1_0_0_1_n_n_wf : DotDims.WF S8192x2048 S2048x8192 S8192x8192 [1] [0] [0] [1] [] []
  dot_S8192x8192_S8192x2048_S8192x2048_1_0_0_1_n_n_wf : DotDims.WF S8192x8192 S8192x2048 S8192x2048 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf

class Facts : Prop extends Facts₀ where

variable [Facts]
-- ==== Proof.KernelPieces.lean ====
/-
  What one grid point leaves in the accumulator and in the output block.

  The grid is (16 row blocks of 512 tokens) × (32 tiles of 256 intermediate features), the tile index
  running fastest.  At every point the body adds, to the 512×2048 accumulator it carries in scratch,
  the contribution of the current tile:

      acc ↦ acc + ( hw · W2ₜ  +  hu · U2ₜ ),
      hw = silu(x·W1ₜ) ∘ (x·W3ₜ) ∘ mask,      hu = silu(x·U1ₜ) ∘ (x·U3ₜ) ∘ (1 − mask),

  where x is the point's 512×2048 block of tokens, W1ₜ W3ₜ U1ₜ U3ₜ the 2048×256 column tiles,
  W2ₜ U2ₜ the 256×2048 row tiles and mask the 512×1 column of gate values.  At the first tile the
  accumulator is first filled with zeros; at the last tile the new accumulator is also copied to the
  output block.  This module states that per case, for any float instance: the three control cases
  leave the same `step` of the incoming accumulator (the zero block in the first case).
-/
import proofs.«125864_j17377437680119_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- One tile's update of the accumulator: `acc + (hw · W2ₜ + hu · U2ₜ)` of the point's eight input blocks
    (tokens, the four column tiles, the two row tiles, the gate column). -/
def step (x0 : Vec F S512x2048 .bf16) (x1 x2 x3 x4 : Vec F S2048x256 .bf16) (x5 x6 : Vec F S256x2048 .bf16) (x7 : Vec F S512x1 .f32) (acc : Vec F S512x2048 .f32) : Vec F S512x2048 .f32 :=
  k0_pay1 (k0_pay5 x0 x7 x1 x2) (k0_pay6 x0 x7 x3 x4) (k0_pay7 x5) x6 acc

/-- The zero block the first tile fills the accumulator with. -/
abbrev zero : Vec F S512x2048 .f32 := k0_pay2 (F := F)

/-- First tile: the accumulator is zeroed, read back, and left at the step of the zero block. -/
theorem sout_A (c : Dev nD) (i : grid0.Coords) (arg2 : Memref sig .tc .vmem S512x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S512x1 .f32) (harg9 : arg9.IsWhole) (arg10 : Memref sig .tc .vmem S512x2048 .f32) (harg10 : arg10.IsWhole) (arg11 : Memref sig .tc .vmem S512x2048 .f32) (harg11 : arg11.IsWhole) (hc0 : cond0_0 i) (hc1 : ¬cond0_1 i) (x0 : Vec F S512x2048 .bf16) (x1 x2 x3 x4 : Vec F S2048x256 .bf16) (x5 x6 : Vec F S256x2048 .bf16) (x7 : Vec F S512x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = step x0 x1 x2 x3 x4 x5 x6 x7 (zero (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg11.read_unread,
    View.ld_unit_zero (S := S512x2048) hz, View.ld_unit_zero (S := S2048x256) hz, View.ld_unit_zero (S := S256x2048) hz, View.ld_unit_zero (S := S512x1) hz]
  rfl

/-- A middle tile: the accumulator holding `acc` is left at the step of `acc`. -/
theorem sout_B (c : Dev nD) (i : grid0.Coords) (arg2 : Memref sig .tc .vmem S512x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S512x1 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : ¬cond0_1 i) (x0 : Vec F S512x2048 .bf16) (x1 x2 x3 x4 : Vec F S2048x256 .bf16) (x5 x6 : Vec F S256x2048 .bf16) (x7 : Vec F S512x1 .f32) (acc : Vec F S512x2048 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 acc = step x0 x1 x2 x3 x4 x5 x6 x7 acc := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 acc)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread,
    View.ld_unit_zero (S := S512x2048) hz, View.ld_unit_zero (S := S2048x256) hz, View.ld_unit_zero (S := S256x2048) hz, View.ld_unit_zero (S := S512x1) hz]
  rfl

/-- Last tile: the accumulator is again left at the step of `acc` … -/
theorem sout_C (c : Dev nD) (i : grid0.Coords) (arg2 : Memref sig .tc .vmem S512x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S512x1 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i) (x0 : Vec F S512x2048 .bf16) (x1 x2 x3 x4 : Vec F S2048x256 .bf16) (x5 x6 : Vec F S256x2048 .bf16) (x7 : Vec F S512x1 .f32) (acc : Vec F S512x2048 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 acc = step x0 x1 x2 x3 x4 x5 x6 x7 acc := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 acc)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread,
    View.ld_unit_zero (S := S512x2048) hz, View.ld_unit_zero (S := S2048x256) hz, View.ld_unit_zero (S := S256x2048) hz, View.ld_unit_zero (S := S512x1) hz]
  rfl

/-- … and the output block receives that same new accumulator, read back whole. -/
theorem out_C (c : Dev nD) (i : grid0.Coords) (arg2 : Memref sig .tc .vmem S512x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S512x1 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i) (x0 : Vec F S512x2048 .bf16) (x1 x2 x3 x4 : Vec F S2048x256 .bf16) (x5 x6 : Vec F S256x2048 .bf16) (x7 : Vec F S512x1 .f32) (acc : Vec F S512x2048 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 acc = step x0 x1 x2 x3 x4 x5 x6 x7 acc := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 acc)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg6.read_unread, harg7.read_unread, harg8.read_unread, harg9.read_unread, harg11.read_unread,
    View.ld_unit_zero (S := S512x2048) hz, View.ld_unit_zero (S := S2048x256) hz, View.ld_unit_zero (S := S256x2048) hz, View.ld_unit_zero (S := S512x1) hz]
  rfl

end Cert.KernelIdeal.Acc

end
-- ==== Proof.AccFold.lean ====
/-
  The accumulator along the grid.

  Point `t` of the 512-point grid works on row block `t / 32` and tile `t % 32`.  The scratch accumulator
  is reset at the first tile of every row block and then carried from tile to tile, so after point `t` it
  holds the steps of tiles `0 … t % 32` of that row block folded over the zero block, in order; at the
  last tile (`t % 32 = 31`) the output block is that accumulator.  This is proved by induction on the
  point, for any float instance.
-/
import proofs.«125864_j17377437680119_2_alg».proof.Proof.KernelPieces

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The update of point `t`: `step` at the point's eight input blocks. -/
def stepAt (c : Dev nD) (t : Fin cfg0.N) (a : Vec F S512x2048 .f32) : Vec F S512x2048 .f32 :=
  step (iblk m c 0 t) (iblk m c 1 t) (iblk m c 2 t) (iblk m c 3 t) (iblk m c 4 t) (iblk m c 5 t) (iblk m c 6 t) (iblk m c 7 t) a

/-- The accumulator after point `n`: reset to the step of the zero block at the first tile of a row block,
    otherwise the step of what the previous point left. -/
def accAt (c : Dev nD) : (n : ℕ) → n < cfg0.N → Vec F S512x2048 .f32
  | 0, h => stepAt m c ⟨0, h⟩ (zero (F := F))
  | n + 1, h =>
    if (n + 1) % 32 = 0 then stepAt m c ⟨n + 1, h⟩ (zero (F := F))
    else stepAt m c ⟨n + 1, h⟩ (accAt c n (Nat.lt_of_succ_lt h))

/-- The carried scratch after every point is that accumulator. -/
theorem scratch_eq (c : Dev nD) : ∀ (n : ℕ) (h : n < cfg0.N), (outsAt0 m c n h).2 = accAt m c n h
  | 0, h => by
    have h1 : ¬(0 : ℕ) % 32 = 31 := by decide
    rw [outsAt0_A m c ⟨0, h⟩ (Nat.zero_mod 32) h1, accAt]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) ((hcond0_0 ⟨0, h⟩).mpr (Nat.zero_mod 32)) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)
  | n + 1, h => by
    by_cases h0 : (n + 1) % 32 = 0
    · have h1 : ¬(n + 1) % 32 = 31 := by omega
      rw [outsAt0_A m c ⟨n + 1, h⟩ h0 h1, accAt, if_pos h0]
      dsimp only
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)
    · by_cases h1 : (n + 1) % 32 = 31
      · rw [outsAt0_C m c ⟨n + 1, h⟩ h0 h1, accAt, if_neg h0, ← scratch_eq c n (Nat.lt_of_succ_lt h)]
        dsimp only
        exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2
      · rw [outsAt0_B m c ⟨n + 1, h⟩ h0 h1, accAt, if_neg h0, ← scratch_eq c n (Nat.lt_of_succ_lt h)]
        dsimp only
        exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2

/-- At the last tile of a row block the output block is the accumulator. -/
theorem out_eq (c : Dev nD) : ∀ (n : ℕ) (h : n < cfg0.N), n % 32 = 31 → (outsAt0 m c n h).1 = accAt m c n h
  | 0, h, h1 => absurd h1 (by decide)
  | n + 1, h, h1 => by
    have h0 : ¬(n + 1) % 32 = 0 := by omega
    rw [outsAt0_C m c ⟨n + 1, h⟩ h0 h1, accAt, if_neg h0, ← scratch_eq m c n (Nat.lt_of_succ_lt h)]
    dsimp only
    exact out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2

end Cert.KernelIdeal.Acc

end
-- ==== Proof.BlockIdx.lean ====
/-
  Which block of its array each window holds at each grid point.

  The grid is 16 × 32 with the second coordinate running fastest, so point `t` has coordinates
  (t / 32, t % 32).  Tokens, the gate column and the output move with the first coordinate; the four
  up-projections' column tiles and the two down-projections' row tiles move with the second.  The
  equations are decided by evaluating the printed index maps at all 512 points.
-/
import proofs.«125864_j17377437680119_2_alg».proof.Proof.Gen.KernelIdeal.Points

set_option maxRecDepth 16384

noncomputable section

open Idealize.ShloMosaic

namespace Cert.KernelIdeal.Acc

open Cert.KernelIdeal Cert.KernelIdeal.Gen

/-- The block index of every window, per axis, at every point of the grid. -/
theorem idx_facts : ∀ t : Fin cfg0.N,
    (win0_0.index t 0 = t.val / 32 ∧ win0_0.index t 1 = 0)
    ∧ (win0_1.index t 0 = 0 ∧ win0_1.index t 1 = t.val % 32)
    ∧ (win0_2.index t 0 = 0 ∧ win0_2.index t 1 = t.val % 32)
    ∧ (win0_3.index t 0 = 0 ∧ win0_3.index t 1 = t.val % 32)
    ∧ (win0_4.index t 0 = 0 ∧ win0_4.index t 1 = t.val % 32)
    ∧ (win0_5.index t 0 = t.val % 32 ∧ win0_5.index t 1 = 0)
    ∧ (win0_6.index t 0 = t.val % 32 ∧ win0_6.index t 1 = 0)
    ∧ (win0_7.index t 0 = t.val / 32 ∧ win0_7.index t 1 = 0)
    ∧ (win0_8.index t 0 = t.val / 32 ∧ win0_8.index t 1 = 0) :=
  (by decide +kernel : ∀ t : Fin grid0.N, _)

end Cert.KernelIdeal.Acc

end
-- ==== Proof.LibRealSums.lean ====
/-
  General algebra of finite sums of real numbers read inside the extended reals.

  At the ideal instance a float is an extended real, and the ring laws that join a program which aggregates
  first and multiplies afterwards to one which multiplies first (distributivity, exchange of two finite sums,
  cancellation in a mean) fail at the two infinities. Every law here is therefore stated for entries that are
  coercions of real numbers: it is proved in the reals and the coercion is pushed through sums, products and
  differences.
-/
import Mathlib
import Idealize.ShloMosaic.PureOps.Ideal
import Idealize.ShloMosaic.PureOps.Ideal.Laws

noncomputable section

open scoped BigOperators
open Idealize.ShloMosaic

namespace LibRealSums

/-! ## 1. The coercion commutes with finite sums -/

/-- The coercion of the reals into the extended reals commutes with a finite sum:
    the coercion of `∑ i ∈ s, f i` is `∑ i ∈ s` of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum_univ {ι : Type*} [Fintype ι] (f : ι → ℝ) :
    ((∑ i, f i : ℝ) : EReal) = ∑ i, (f i : EReal) :=
  coe_sum Finset.univ f

/-! ## 3. Regrouping a sum over `m * n` indices into `m` tiles of `n` -/

/-- A sum over `Fin N` with `N = m * n` is the sum over the `m` tiles of the sums over the `n` positions of a
    tile, the index of position `r` of tile `t` being `t * n + r`. -/
theorem sum_tiles {M : Type*} [AddCommMonoid M] {m n N : ℕ} (h : m * n = N) (f : Fin N → M) :
    ∑ t : Fin m, ∑ r : Fin n,
        f ⟨t.val * n + r.val, by
          have := t.isLt; have := r.isLt
          calc t.val * n + r.val < t.val * n + n := by omega
            _ = (t.val + 1) * n := by ring
            _ ≤ m * n := Nat.mul_le_mul_right _ (by omega)
            _ = N := h⟩
      = ∑ i : Fin N, f i := by
  subst h
  rw [← (finProdFinEquiv (m := m) (n := n)).sum_comp f, Fintype.sum_prod_type]
  refine Finset.sum_congr rfl fun t _ => Finset.sum_congr rfl fun r _ => congrArg f (Fin.ext ?_)
  simp only [finProdFinEquiv, Equiv.coe_fn_mk]
  ring

/-- `100000 = 25 * 4000`: a sum over 100000 indices is the sum over 25 tiles of 4000. -/
theorem sum_tiles_25_4000 {M : Type*} [AddCommMonoid M] (f : Fin 100000 → M) :
    ∑ t : Fin 25, ∑ r : Fin 4000, f ⟨t.val * 4000 + r.val, by omega⟩ = ∑ i : Fin 100000, f i :=
  sum_tiles (m := 25) (n := 4000) (N := 100000) (by norm_num) f

/-- `100000 = 50 * 2000`: a sum over 100000 indices is the sum over 50 tiles of 2000. -/
theorem sum_tiles_50_2000 {M : Type*} [AddCommMonoid M] (f : Fin 100000 → M) :
    ∑ t : Fin 50, ∑ r : Fin 2000, f ⟨t.val * 2000 + r.val, by omega⟩ = ∑ i : Fin 100000, f i :=
  sum_tiles (m := 50) (n := 2000) (N := 100000) (by norm_num) f

/-! ## 5. Aggregate, then multiply by the weight = multiply by the weight, then aggregate -/

/-- In the reals: the weighted sum over `k` of an aggregate `∑ e ∈ S, nrm e * g e k + d * y k` is the aggregate
    of the weighted sums: distributivity and the exchange of the two finite sums. -/
theorem real_aggregate_mul {E K : Type*} [Fintype K] (S : Finset E) (nrm : E → ℝ) (g : E → K → ℝ) (d : ℝ)
    (y W : K → ℝ) :
    ∑ k, ((∑ e ∈ S, nrm e * g e k) + d * y k) * W k
      = (∑ e ∈ S, nrm e * ∑ k, g e k * W k) + d * ∑ k, y k * W k := by
  simp only [add_mul, Finset.sum_add_distrib, Finset.sum_mul, Finset.mul_sum, mul_assoc]
  rw [Finset.sum_comm]

/-- In the extended reals, for real entries: a row that is first aggregated over the edges `e ∈ S` landing on it
    (each scaled by `nrm e`), has `d` times its own entry added, and is then contracted with the weight `W`, equals
    the row whose edge features and own entry are contracted with `W` first and aggregated afterwards. The leading
    `0 +` on both sides is the zero the scatter-add starts from. -/
theorem aggregate_mul {E K : Type*} [Fintype K] (S : Finset E) (nrm : E → ℝ) (g : E → K → ℝ) (d : ℝ)
    (y W : K → ℝ) :
    ∑ k, (((0 : EReal) + ∑ e ∈ S, (nrm e : EReal) * (g e k : EReal)) + (d : EReal) * (y k : EReal)) * (W k : EReal)
      = ((0 : EReal) + ∑ e ∈ S, (nrm e : EReal) * ∑ k, (g e k : EReal) * (W k : EReal))
          + (d : EReal) * ∑ k, (y k : EReal) * (W k : EReal) := by
  simp only [zero_add, ← EReal.coe_mul, ← coe_sum, ← EReal.coe_add]
  rw [real_aggregate_mul]

/-- The same with the edges selected by a decidable predicate: the sums over `Finset.univ.filter p`. -/
theorem aggregate_mul_filter {E K : Type*} [Fintype E] [Fintype K] (p : E → Prop) [DecidablePred p]
    (nrm : E → ℝ) (g : E → K → ℝ) (d : ℝ) (y W : K → ℝ) :
    ∑ k, (((0 : EReal) + ∑ e ∈ Finset.univ.filter p, (nrm e : EReal) * (g e k : EReal))
            + (d : EReal) * (y k : EReal)) * (W k : EReal)
      = ((0 : EReal) + ∑ e ∈ Finset.univ.filter p, (nrm e : EReal) * ∑ k, (g e k : EReal) * (W k : EReal))
          + (d : EReal) * ∑ k, (y k : EReal) * (W k : EReal) :=
  aggregate_mul (Finset.univ.filter p) nrm g d y W

/-- The aggregate without the self term: contraction with the weight commutes with the scaled aggregation. -/
theorem aggregate_mul_noself {E K : Type*} [Fintype K] (S : Finset E) (nrm : E → ℝ) (g : E → K → ℝ)
    (W : K → ℝ) :
    ∑ k, ((0 : EReal) + ∑ e ∈ S, (nrm e : EReal) * (g e k : EReal)) * (W k : EReal)
      = (0 : EReal) + ∑ e ∈ S, (nrm e : EReal) * ∑ k, (g e k : EReal) * (W k : EReal) := by
  simp only [zero_add, ← EReal.coe_mul, ← coe_sum]
  congr 1
  simp only [Finset.sum_mul, Finset.mul_sum, mul_assoc]
  rw [Finset.sum_comm]

/-! ## 4. The variance: mean of the squares minus the squared mean = mean of the squared deviations -/

/-- The quotient of a real by a nonzero real, taken in the extended reals, is the coercion of the real quotient. -/
theorem div_coe_coe (x : ℝ) {n : ℝ} (hn : n ≠ 0) :
    Ideal.div (x : EReal) (n : EReal) = ((x / n : ℝ) : EReal) := by
  rw [Ideal.div_coe hn, ← EReal.coe_mul, mul_one_div]

/-- In the reals, over `n ≠ 0` entries with mean `m = (∑ a) / n`:
    `(∑ a²) / n - m² = (∑ (a - m)²) / n`, since `∑ (a - m)² = ∑ a² - 2 m ∑ a + n m²` and `∑ a = n m`. -/
theorem real_variance {ι : Type*} [Fintype ι] (a : ι → ℝ) {n : ℝ} (hcard : (Fintype.card ι : ℝ) = n)
    (hn : n ≠ 0) :
    (∑ i, a i * a i) / n - (∑ i, a i) / n * ((∑ i, a i) / n)
      = (∑ i, (a i - (∑ j, a j) / n) * (a i - (∑ j, a j) / n)) / n := by
  have key : ∀ m : ℝ, ∑ i, (a i - m) * (a i - m) = (∑ i, a i * a i) - 2 * m * (∑ i, a i) + n * (m * m) := by
    intro m
    have h : ∀ i, (a i - m) * (a i - m) = a i * a i - 2 * m * a i + m * m := fun i => by ring
    simp only [h, Finset.sum_add_distrib, Finset.sum_sub_distrib, ← Finset.mul_sum, Finset.sum_const,
      Finset.card_univ, nsmul_eq_mul, hcard]
    ring
  rw [key]
  field_simp
  ring

/-- In the extended reals, for real entries `a i` over an index type of `n ≠ 0` elements, with the mean
    `μ = (∑ a) / n`: the mean of the squares minus the square of the mean is the mean of the squared deviations
    from the mean. (The two-pass and the one-pass formula of a batch variance.) -/
theorem variance {ι : Type*} [Fintype ι] (a : ι → ℝ) {n : ℝ} (hcard : (Fintype.card ι : ℝ) = n) (hn : n ≠ 0) :
    Ideal.div (∑ i, (a i : EReal) * (a i : EReal)) (n : EReal)
        - Ideal.div (∑ i, (a i : EReal)) (n : EReal) * Ideal.div (∑ i, (a i : EReal)) (n : EReal)
      = Ideal.div (∑ i, ((a i : EReal) - Ideal.div (∑ j, (a j : EReal)) (n : EReal))
                        * ((a i : EReal) - Ideal.div (∑ j, (a j : EReal)) (n : EReal))) (n : EReal) := by
  have hμ : Ideal.div (∑ j, (a j : EReal)) (n : EReal) = (((∑ j, a j) / n : ℝ) : EReal) := by
    rw [← coe_sum_univ, div_coe_coe _ hn]
  rw [hμ]
  simp only [← EReal.coe_mul, ← EReal.coe_sub, ← coe_sum_univ, div_coe_coe _ hn]
  rw [real_variance a hcard hn]

/-- The same with the mean named: for `μ` equal to `(∑ a) / n`. -/
theorem variance' {ι : Type*} [Fintype ι] (a : ι → ℝ) {n : ℝ} (hcard : (Fintype.card ι : ℝ) = n) (hn : n ≠ 0)
    (μ : EReal) (hμ : μ = Ideal.div (∑ i, (a i : EReal)) (n : EReal)) :
    Ideal.div (∑ i, (a i : EReal) * (a i : EReal)) (n : EReal) - μ * μ
      = Ideal.div (∑ i, ((a i : EReal) - μ) * ((a i : EReal) - μ)) (n : EReal) := by
  subst hμ
  exact variance a hcard hn

/-- The mean of real entries is real: `(∑ a) / n` in the extended reals is the coercion of the real mean. -/
theorem mean_eq_coe {ι : Type*} [Fintype ι] (a : ι → ℝ) {n : ℝ} (hn : n ≠ 0) :
    Ideal.div (∑ i, (a i : EReal)) (n : EReal) = (((∑ i, a i) / n : ℝ) : EReal) := by
  rw [← coe_sum_univ, div_coe_coe _ hn]

/-- Both forms of the variance of real entries are the coercion of ONE real number `v ≥ 0` (so that adding an
    `ε > 0` gives a real `> 0`): `v` is the real mean of the squared deviations. -/
theorem variance_eq_coe_nonneg {ι : Type*} [Fintype ι] (a : ι → ℝ) {n : ℝ} (hcard : (Fintype.card ι : ℝ) = n)
    (hn : n ≠ 0) :
    ∃ v : ℝ, 0 ≤ v
      ∧ Ideal.div (∑ i, (a i : EReal) * (a i : EReal)) (n : EReal)
          - Ideal.div (∑ i, (a i : EReal)) (n : EReal) * Ideal.div (∑ i, (a i : EReal)) (n : EReal) = (v : EReal)
      ∧ Ideal.div (∑ i, ((a i : EReal) - Ideal.div (∑ j, (a j : EReal)) (n : EReal))
                        * ((a i : EReal) - Ideal.div (∑ j, (a j : EReal)) (n : EReal))) (n : EReal) = (v : EReal) := by
  have hnn : 0 ≤ n := hcard ▸ Nat.cast_nonneg _
  have h2 : Ideal.div (∑ i, ((a i : EReal) - Ideal.div (∑ j, (a j : EReal)) (n : EReal))
                        * ((a i : EReal) - Ideal.div (∑ j, (a j : EReal)) (n : EReal))) (n : EReal)
      = (((∑ i, (a i - (∑ j, a j) / n) * (a i - (∑ j, a j) / n)) / n : ℝ) : EReal) := by
    rw [mean_eq_coe a hn]
    simp only [← EReal.coe_mul, ← EReal.coe_sub, ← coe_sum_univ, div_coe_coe _ hn]
  refine ⟨(∑ i, (a i - (∑ j, a j) / n) * (a i - (∑ j, a j) / n)) / n,
    div_nonneg (Finset.sum_nonneg fun i _ => mul_self_nonneg _) hnn, ?_, h2⟩
  rw [variance a hcard hn, h2]

/-! ## 2. The reals are closed, inside the extended reals, under the operations of a program

  `IsReal x` says that `x` is the coercion of a real number. The arithmetic and lattice operations, finite sums,
  division by a nonzero real, the reciprocal square root of a positive real and the smooth unary functions all
  keep a value real. -/

/-- An extended real is *real* when it is the coercion of a real number, i.e. neither infinity. -/
def IsReal (x : EReal) : Prop := ∃ r : ℝ, x = (r : EReal)

namespace IsReal

/-- The coercion of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A real value is not `⊤`. -/
theorem ne_top {x : EReal} (h : IsReal x) : x ≠ ⊤ := by
  obtain ⟨r, rfl⟩ := h; exact EReal.coe_ne_top r

/-- A real value is not `⊥`. -/
theorem ne_bot {x : EReal} (h : IsReal x) : x ≠ ⊥ := by
  obtain ⟨r, rfl⟩ := h; exact EReal.coe_ne_bot r

/-- An extended real is real exactly when it is neither `⊥` nor `⊤`. -/
theorem iff_ne {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | coe r => exact ⟨r, rfl⟩
    | top => exact absurd rfl ht

/-- A real value is the coercion of its real part `x.toReal`. -/
theorem coe_toReal {x : EReal} (h : IsReal x) : ((x.toReal : ℝ) : EReal) = x := by
  obtain ⟨r, rfl⟩ := h; rfl

/-- The sum of two reals is real. -/
protected theorem add {x y : EReal} (hx : IsReal x) (hy : IsReal y) : IsReal (x + y) := by
  obtain ⟨a, rfl⟩ := hx; obtain ⟨b, rfl⟩ := hy; exact ⟨a + b, (EReal.coe_add a b).symm⟩

/-- The negation of a real is real. -/
protected theorem neg {x : EReal} (hx : IsReal x) : IsReal (-x) := by
  obtain ⟨a, rfl⟩ := hx; exact ⟨-a, (EReal.coe_neg a).symm⟩

/-- The difference of two reals is real. -/
protected theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
protected theorem mul {x y : EReal} (hx : IsReal x) (hy : IsReal y) : IsReal (x * y) := by
  obtain ⟨a, rfl⟩ := hx; obtain ⟨b, rfl⟩ := hy; exact ⟨a * b, (EReal.coe_mul a b).symm⟩

/-- The coercion commutes with the maximum (it is monotone). -/
theorem coe_max (a b : ℝ) : ((max a b : ℝ) : EReal) = max (a : EReal) (b : EReal) :=
  EReal.coe_strictMono.monotone.map_max

/-- The coercion commutes with the minimum (it is monotone). -/
theorem coe_min (a b : ℝ) : ((min a b : ℝ) : EReal) = min (a : EReal) (b : EReal) :=
  EReal.coe_strictMono.monotone.map_min

/-- The maximum of two reals is real. -/
protected theorem max {x y : EReal} (hx : IsReal x) (hy : IsReal y) : IsReal (max x y) := by
  obtain ⟨a, rfl⟩ := hx; obtain ⟨b, rfl⟩ := hy; exact ⟨Max.max a b, (coe_max a b).symm⟩

/-- The minimum of two reals is real. -/
protected theorem min {x y : EReal} (hx : IsReal x) (hy : IsReal y) : IsReal (min x y) := by
  obtain ⟨a, rfl⟩ := hx; obtain ⟨b, rfl⟩ := hy; exact ⟨Min.min a b, (coe_min a b).symm⟩

/-- A finite sum of reals is real. -/
protected theorem sum {ι : Type*} (s : Finset ι) (f : ι → EReal) (h : ∀ i ∈ s, IsReal (f i)) :
    IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- A sum of reals over a whole finite index type is real. -/
protected theorem sum_univ {ι : Type*} [Fintype ι] (f : ι → EReal) (h : ∀ i, IsReal (f i)) :
    IsReal (∑ i, f i) :=
  IsReal.sum Finset.univ f fun i _ => h i

/-- The quotient of a real by a nonzero real is real: it is the coercion of the real quotient. -/
theorem div_coe {x : EReal} (hx : IsReal x) {n : ℝ} (hn : n ≠ 0) : IsReal (Ideal.div x (n : EReal)) := by
  obtain ⟨a, rfl⟩ := hx
  exact ⟨a * (1 / n), by rw [Ideal.div_coe hn, EReal.coe_mul]⟩

/-- The quotient of two reals with a nonzero divisor is real. -/
protected theorem div {x y : EReal} (hx : IsReal x) (hy : IsReal y) (h0 : y ≠ 0) : IsReal (Ideal.div x y) := by
  obtain ⟨b, rfl⟩ := hy
  exact hx.div_coe (fun hb => h0 (by rw [hb, EReal.coe_zero]))

/-- The reciprocal square root of a positive real `r` is the real `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.mpr (Real.sqrt_pos.mpr hr)⟩
  rw [Ideal.rsqrt_coe, if_neg (not_lt.mpr hr.le), if_neg hr.ne']

/-- The reciprocal square root of a positive real is a positive real. -/
theorem rsqrt_pos {x : EReal} (hx : IsReal x) (h0 : 0 < x) :
    ∃ s : ℝ, 0 < s ∧ Ideal.rsqrt x = (s : EReal) := by
  obtain ⟨r, rfl⟩ := hx
  have hr : 0 < r := EReal.coe_pos.mp h0
  exact ⟨(Real.sqrt r)⁻¹, (rsqrt_coe_pos hr).2, (rsqrt_coe_pos hr).1⟩

/-- The reciprocal square root of a positive real is real. -/
protected theorem rsqrt {x : EReal} (hx : IsReal x) (h0 : 0 < x) : IsReal (Ideal.rsqrt x) := by
  obtain ⟨s, _, hs⟩ := rsqrt_pos hx h0
  exact ⟨s, hs⟩

/-- A real `≥ 0` plus a real `> 0` is a real `> 0` (a variance plus its `ε`). -/
theorem add_pos_of_nonneg_of_pos {v e : ℝ} (hv : 0 ≤ v) (he : 0 < e) :
    ∃ r : ℝ, 0 < r ∧ (v : EReal) + (e : EReal) = (r : EReal) :=
  ⟨v + e, by positivity, (EReal.coe_add v e).symm⟩

/-- The hyperbolic tangent of a real is real. -/
protected theorem tanh {x : EReal} (hx : IsReal x) : IsReal (Ideal.tanh x) := by
  obtain ⟨r, rfl⟩ := hx; exact ⟨Real.tanh r, Ideal.tanh_coe r⟩

/-- The exponential of a real is real (and positive). -/
protected theorem exp {x : EReal} (hx : IsReal x) : IsReal (Ideal.exp x) := by
  obtain ⟨r, rfl⟩ := hx; exact ⟨Real.exp r, Ideal.exp_coe r⟩

/-- The logistic function of a real is real. -/
protected theorem logistic {x : EReal} (hx : IsReal x) : IsReal (Ideal.logistic x) := by
  obtain ⟨r, rfl⟩ := hx; exact ⟨(1 + Real.exp (-r))⁻¹, Ideal.logistic_coe r⟩

end IsReal

end LibRealSums
-- ==== Proof.Spec.lean ====
/-
  The mathematics of the mask-gated dual feed-forward, with no program in sight.

  For tokens X (8192 × 2048), up-projections A, B (2048 × 8192) and a down-projection C (8192 × 2048),
  one branch of the layer is

      branch(R, h) = ∑ⱼ ( s·σ(s)·s' ) · C(j, h),    s = ∑_d X(R,d)·A(d,j),   s' = ∑_d X(R,d)·B(d,j),

  σ the logistic function, j over the 8192 intermediate features.  The layer picks, per token R, the
  first branch (weights W1, W3, W2) where the token's mask bit is set and the second (U1, U3, U2) where
  it is not.

  The tiled computation instead walks the intermediate features in 32 tiles of 256, multiplies the first
  branch's activations by the gate g ∈ {0, 1} (the mask bit as a number) and the second's by 1 − g, and
  adds up both branches' contributions tile after tile.  The two agree over the extended reals because a
  gate of 1 leaves a product unchanged, a gate of 0 annihilates it (x · 0 = 0 for every extended real,
  the infinities included), adding 0 changes nothing, and a sum over 8192 = 32 · 256 indices is the sum
  over the tiles of the sums inside a tile — only commutativity and associativity of + are used, so no
  finiteness of the entries is needed.
-/
import proofs.«125864_j17377437680119_2_alg».proof.Proof.LibRealSums
import Idealize.ShloMosaic.PureOps.Ideal
import Idealize.ShloMosaic.PureOps.Ideal.Laws
import Idealize.ShloMosaic.Lib.ValueIdx

noncomputable section

open Idealize.ShloMosaic

namespace Cert.GatedFFN

/-- Row `r` of row block `b` (512 tokens per block, 16 blocks), as a token index. -/
def row (b : ℕ) (r : Fin 512) : Fin 8192 := ⟨512 * (b % 16) + r.val, by have := r.isLt; omega⟩

/-- Feature `k` of tile `i` (256 features per tile, 32 tiles), as an intermediate-feature index. -/
def col (i : ℕ) (k : Fin 256) : Fin 8192 := ⟨256 * (i % 32) + k.val, by have := k.isLt; omega⟩

variable (X : Fin 8192 → Fin 2048 → EReal) (A B : Fin 2048 → Fin 8192 → EReal) (C : Fin 8192 → Fin 2048 → EReal)

/-- An up-projection of token `R` at feature `j`. -/
def pre (A : Fin 2048 → Fin 8192 → EReal) (R j : Fin 8192) : EReal := ∑ d : Fin 2048, X R d * A d j

/-- The gated activation `s · σ(s) · s' · g` of token `R` at feature `j`. -/
def act (g : EReal) (R j : Fin 8192) : EReal :=
  pre X A R j * Ideal.logistic (pre X A R j) * pre X B R j * g

/-- Tile `i`'s contribution to the down-projection of token `R` at hidden feature `h`. -/
def tile (g : EReal) (i : ℕ) (R : Fin 8192) (h : Fin 2048) : EReal :=
  ∑ k : Fin 256, act X A B g R (col i k) * C (col i k) h

/-- One whole branch: `silu(X·A) ∘ (X·B)` times `C`, at (R, h). -/
def branch (R : Fin 8192) (h : Fin 2048) : EReal :=
  ∑ j : Fin 8192, (pre X A R j * Ideal.logistic (pre X A R j) * pre X B R j) * C j h

/-- What the tiled computation accumulates for token `R` after tiles `0 … n`: both branches, gated by `g` and `one − g`. -/
def partialSum (X : Fin 8192 → Fin 2048 → EReal) (W1 W3 : Fin 2048 → Fin 8192 → EReal) (W2 : Fin 8192 → Fin 2048 → EReal)
    (U1 U3 : Fin 2048 → Fin 8192 → EReal) (U2 : Fin 8192 → Fin 2048 → EReal) (one g : EReal) (n : ℕ) (R : Fin 8192) (h : Fin 2048) : EReal :=
  ∑ i ∈ Finset.range (n + 1), (tile X W1 W3 W2 g i R h + tile X U1 U3 U2 (one - g) i R h)

/-- A gate of 1 leaves the tile's products as they are. -/
theorem tile_one (i : ℕ) (R : Fin 8192) (h : Fin 2048) :
    tile X A B C 1 i R h
      = ∑ k : Fin 256, (pre X A R (col i k) * Ideal.logistic (pre X A R (col i k)) * pre X B R (col i k)) * C (col i k) h := by
  unfold tile act
  simp only [mul_one]

/-- A gate of 0 annihilates the tile: every product with 0 is 0, whatever the other factor. -/
theorem tile_zero (i : ℕ) (R : Fin 8192) (h : Fin 2048) : tile X A B C 0 i R h = 0 := by
  unfold tile act
  simp only [mul_zero, zero_mul, Finset.sum_const_zero]

/-- The 32 tiles of 256 features exhaust the 8192 features: with gate 1 the tiles add up to the branch. -/
theorem sum_tiles_one (R : Fin 8192) (h : Fin 2048) :
    ∑ i ∈ Finset.range 32, tile X A B C 1 i R h = branch X A B C R h := by
  unfold branch
  rw [Finset.sum_range (fun i => tile X A B C 1 i R h),
    ← LibRealSums.sum_tiles (m := 32) (n := 256) (N := 8192) rfl
      (fun j => (pre X A R j * Ideal.logistic (pre X A R j) * pre X B R j) * C j h)]
  refine Finset.sum_congr rfl fun i _ => ?_
  rw [tile_one]
  refine Finset.sum_congr rfl fun k _ => ?_
  have e : col i.val k = ⟨i.val * 256 + k.val, by have := i.isLt; have := k.isLt; omega⟩ :=
    Fin.ext (by show 256 * (i.val % 32) + k.val = i.val * 256 + k.val; have := i.isLt; omega)
  rw [e]

/-- The float word `0x3F800000` is the number one. -/
theorem ofBits_one : Ideal.ofBits .f32 0x3F800000#32 = 1 := by
  simp [Ideal.ofBits, Ideal.ieee]
  rw [← EReal.coe_mul, ← EReal.coe_one]
  congr 1
  norm_num

theorem one_sub_one : (1 : EReal) - 1 = 0 := by
  rw [← EReal.coe_one, ← EReal.coe_sub]; simp

theorem one_sub_zero : (1 : EReal) - 0 = 1 := by simp

/-- THE LAW JOINING THE TWO SIDES.  With the gate the numeric value of the mask bit `b`, the 32 tiles of both
    gated branches add up to the branch the bit selects: the other branch's tiles are all 0. -/
theorem partialSum_select (X : Fin 8192 → Fin 2048 → EReal) (W1 W3 : Fin 2048 → Fin 8192 → EReal) (W2 : Fin 8192 → Fin 2048 → EReal)
    (U1 U3 : Fin 2048 → Fin 8192 → EReal) (U2 : Fin 8192 → Fin 2048 → EReal) (b : BitVec 1) (R : Fin 8192) (h : Fin 2048) :
    partialSum X W1 W3 W2 U1 U3 U2 (Ideal.ofBits .f32 0x3F800000#32) (((b.toNat : ℝ) : EReal)) 31 R h
      = Scalar.select b (branch X W1 W3 W2 R h) (branch X U1 U3 U2 R h) := by
  unfold partialSum
  show ∑ i ∈ Finset.range 32, _ = _
  rw [ofBits_one, Finset.sum_add_distrib]
  by_cases hb : b = 1#1
  · subst hb
    have e : ((((1#1 : BitVec 1).toNat : ℝ)) : EReal) = 1 := by simp
    rw [e, one_sub_one, ValueIdx.select_one, sum_tiles_one]
    simp only [tile_zero, Finset.sum_const_zero, add_zero]
  · obtain rfl := ValueIdx.eq_zero_of_ne_one hb
    have e : ((((0#1 : BitVec 1).toNat : ℝ)) : EReal) = 0 := by simp
    rw [e, one_sub_zero, ValueIdx.select_zero, sum_tiles_one]
    simp only [tile_zero, Finset.sum_const_zero, zero_add]

end Cert.GatedFFN

end
-- ==== Proof.Blocks.lean ====
/-
  The kernel's input blocks as entries of the arrays the region finds.

  At grid point `t` (row block `t / 32`, tile `t % 32`) the pipeline hands the body
    · rows `512·(t/32) … +511` of the tokens and of the gate column,
    · columns `256·(t%32) … +255` of the four up-projection matrices,
    · rows `256·(t%32) … +255` of the two down-projection matrices.
  A block's entry at local coordinates is the array's entry at block index × block size + the local
  coordinate, per axis; the block indices as functions of the point are decided once over the 512 points.
-/
import proofs.«125864_j17377437680119_2_alg».proof.Proof.AccFold
import proofs.«125864_j17377437680119_2_alg».proof.Proof.BlockIdx
import Idealize.ShloMosaic.Lib.StableHlo.Run
import proofs.«125864_j17377437680119_2_alg».proof.Proof.Spec
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.ValueIdx (ix2 eq_ix2)
open Cert.GatedFFN (row col)

namespace Cert.KernelIdeal.Acc

open Cert.KernelIdeal Cert.KernelIdeal.Gen

variable {F : FTy → Type} [FloatOps F]
variable (m : (ℓ : Loc nD τ sig) → Buf (Elt F) ℓ)

/-- The point's block of tokens: rows `512·(t/32) + r`. -/
theorem blk0 (c : Dev nD) (t : Fin cfg0.N) (r : Fin 512) (d : Fin 2048) :
    (iblk m c 0 t : Vec F S512x2048 .bf16) (ix2 r d) = (V m c main_v1 : S8192x2048.Idx → Elt F .bf16) (ix2 (row (t.val / 32) r) d) := by
  have hN : cfg0.N = 512 := N_0
  have ht := t.isLt
  unfold iblk
  rw [View.read_apply]
  show V m c main_v1 _ = V m c main_v1 _
  congr 1
  funext a
  apply Fin.ext
  match a with
  | ⟨0, _⟩ =>
    show win0_0.index t 0 * 512 + 1 * r.val = 512 * ((t.val / 32) % 16) + r.val
    rw [(idx_facts t).1.1]; omega
  | ⟨1, _⟩ =>
    show win0_0.index t 1 * 2048 + 1 * d.val = d.val
    rw [(idx_facts t).1.2]; omega

/-- The tile's columns of the first branch's first up-projection. -/
theorem blk1 (c : Dev nD) (t : Fin cfg0.N) (d : Fin 2048) (k : Fin 256) :
    (iblk m c 1 t : Vec F S2048x256 .bf16) (ix2 d k) = (V m c main_v2 : S2048x8192.Idx → Elt F .bf16) (ix2 d (col (t.val % 32) k)) := by
  unfold iblk
  rw [View.read_apply]
  show V m c main_v2 _ = V m c main_v2 _
  congr 1
  funext a
  apply Fin.ext
  match a with
  | ⟨0, _⟩ =>
    show win0_1.index t 0 * 2048 + 1 * d.val = d.val
    rw [(idx_facts t).2.1.1]; omega
  | ⟨1, _⟩ =>
    show win0_1.index t 1 * 256 + 1 * k.val = 256 * ((t.val % 32) % 32) + k.val
    rw [(idx_facts t).2.1.2]; omega

/-- The tile's columns of the first branch's second up-projection. -/
theorem blk2 (c : Dev nD) (t : Fin cfg0.N) (d : Fin 2048) (k : Fin 256) :
    (iblk m c 2 t : Vec F S2048x256 .bf16) (ix2 d k) = (V m c main_v3 : S2048x8192.Idx → Elt F .bf16) (ix2 d (col (t.val % 32) k)) := by
  unfold iblk
  rw [View.read_apply]
  show V m c main_v3 _ = V m c main_v3 _
  congr 1
  funext a
  apply Fin.ext
  match a with
  | ⟨0, _⟩ =>
    show win0_2.index t 0 * 2048 + 1 * d.val = d.val
    rw [(idx_facts t).2.2.1.1]; omega
  | ⟨1, _⟩ =>
    show win0_2.index t 1 * 256 + 1 * k.val = 256 * ((t.val % 32) % 32) + k.val
    rw [(idx_facts t).2.2.1.2]; omega

/-- The tile's columns of the second branch's first up-projection. -/
theorem blk3 (c : Dev nD) (t : Fin cfg0.N) (d : Fin 2048) (k : Fin 256) :
    (iblk m c 3 t : Vec F S2048x256 .bf16) (ix2 d k) = (V m c main_v4 : S2048x8192.Idx → Elt F .bf16) (ix2 d (col (t.val % 32) k)) := by
  unfold iblk
  rw [View.read_apply]
  show V m c main_v4 _ = V m c main_v4 _
  congr 1
  funext a
  apply Fin.ext
  match a with
  | ⟨0, _⟩ =>
    show win0_3.index t 0 * 2048 + 1 * d.val = d.val
    rw [(idx_facts t).2.2.2.1.1]; omega
  | ⟨1, _⟩ =>
    show win0_3.index t 1 * 256 + 1 * k.val = 256 * ((t.val % 32) % 32) + k.val
    rw [(idx_facts t).2.2.2.1.2]; omega

/-- The tile's columns of the second branch's second up-projection. -/
theorem blk4 (c : Dev nD) (t : Fin cfg0.N) (d : Fin 2048) (k : Fin 256) :
    (iblk m c 4 t : Vec F S2048x256 .bf16) (ix2 d k) = (V m c main_v5 : S2048x8192.Idx → Elt F .bf16) (ix2 d (col (t.val % 32) k)) := by
  unfold iblk
  rw [View.read_apply]
  show V m c main_v5 _ = V m c main_v5 _
  congr 1
  funext a
  apply Fin.ext
  match a with
  | ⟨0, _⟩ =>
    show win0_4.index t 0 * 2048 + 1 * d.val = d.val
    rw [(idx_facts t).2.2.2.2.1.1]; omega
  | ⟨1, _⟩ =>
    show win0_4.index t 1 * 256 + 1 * k.val = 256 * ((t.val % 32) % 32) + k.val
    rw [(idx_facts t).2.2.2.2.1.2]; omega

/-- The tile's rows of the first branch's down-projection. -/
theorem blk5 (c : Dev nD) (t : Fin cfg0.N) (k : Fin 256) (h : Fin 2048) :
    (iblk m c 5 t : Vec F S256x2048 .bf16) (ix2 k h) = (V m c main_v6 : S8192x2048.Idx → Elt F .bf16) (ix2 (col (t.val % 32) k) h) := by
  unfold iblk
  rw [View.read_apply]
  show V m c main_v6 _ = V m c main_v6 _
  congr 1
  funext a
  apply Fin.ext
  match a with
  | ⟨0, _⟩ =>
    show win0_5.index t 0 * 256 + 1 * k.val = 256 * ((t.val % 32) % 32) + k.val
    rw [(idx_facts t).2.2.2.2.2.1.1]; omega
  | ⟨1, _⟩ =>
    show win0_5.index t 1 * 2048 + 1 * h.val = h.val
    rw [(idx_facts t).2.2.2.2.2.1.2]; omega

/-- The tile's rows of the second branch's down-projection. -/
theorem blk6 (c : Dev nD) (t : Fin cfg0.N) (k : Fin 256) (h : Fin 2048) :
    (iblk m c 6 t : Vec F S256x2048 .bf16) (ix2 k h) = (V m c main_v7 : S8192x2048.Idx → Elt F .bf16) (ix2 (col (t.val % 32) k) h) := by
  unfold iblk
  rw [View.read_apply]
  show V m c main_v7 _ = V m c main_v7 _
  congr 1
  funext a
  apply Fin.ext
  match a with
  | ⟨0, _⟩ =>
    show win0_6.index t 0 * 256 + 1 * k.val = 256 * ((t.val % 32) % 32) + k.val
    rw [(idx_facts t).2.2.2.2.2.2.1.1]; omega
  | ⟨1, _⟩ =>
    show win0_6.index t 1 * 2048 + 1 * h.val = h.val
    rw [(idx_facts t).2.2.2.2.2.2.1.2]; omega

/-- The point's block of the gate column: rows `512·(t/32) + r`. -/
theorem blk7 (c : Dev nD) (t : Fin cfg0.N) (r : Fin 512) :
    (iblk m c 7 t : Vec F S512x1 .f32) (ix2 r 0) = (V m c main_v9 : S8192x1.Idx → Elt F .f32) (ix2 (row (t.val / 32) r) 0) := by
  have hN : cfg0.N = 512 := N_0
  have ht := t.isLt
  unfold iblk
  rw [View.read_apply]
  show V m c main_v9 _ = V m c main_v9 _
  congr 1
  funext a
  apply Fin.ext
  match a with
  | ⟨0, _⟩ =>
    show win0_7.index t 0 * 512 + 1 * r.val = 512 * ((t.val / 32) % 16) + r.val
    rw [(idx_facts t).2.2.2.2.2.2.2.1.1]; omega
  | ⟨1, _⟩ =>
    show win0_7.index t 1 * 1 + 1 * 0 = 0
    rw [(idx_facts t).2.2.2.2.2.2.2.1.2]

/-! ## The arrays the region finds, as the host operations before it leave them -/

/-- The tokens: the argument reshaped to 8192 × 2048 and changed in format. -/
theorem V_x (c : Dev nD) :
    (V m c main_v1 : S8192x2048.Idx → Elt F .bf16)
      = truncf .bf16 (shapeCast S8192x2048 (m ((c : Thread nD τ).loc main_arg0)) shapeCasts_S4x2048x2048_S8192x2048) bitsLt_bf16_f32 := by
  show StableHlo.after hostOps0 (fun b => m (c, b)) (Proc.devRef .tc main_v1) = _
  after_results
  rfl

/-- The six weight matrices: the arguments changed in format. -/
theorem V_w1 (c : Dev nD) :
    (V m c main_v2 : S2048x8192.Idx → Elt F .bf16) = truncf .bf16 (m ((c : Thread nD τ).loc main_arg1)) bitsLt_bf16_f32 := by
  show StableHlo.after hostOps0 (fun b => m (c, b)) (Proc.devRef .tc main_v2) = _
  after_results

theorem V_w3 (c : Dev nD) :
    (V m c main_v3 : S2048x8192.Idx → Elt F .bf16) = truncf .bf16 (m ((c : Thread nD τ).loc main_arg3)) bitsLt_bf16_f32 := by
  show StableHlo.after hostOps0 (fun b => m (c, b)) (Proc.devRef .tc main_v3) = _
  after_results

theorem V_u1 (c : Dev nD) :
    (V m c main_v4 : S2048x8192.Idx → Elt F .bf16) = truncf .bf16 (m ((c : Thread nD τ).loc main_arg4)) bitsLt_bf16_f32 := by
  show StableHlo.after hostOps0 (fun b => m (c, b)) (Proc.devRef .tc main_v4) = _
  after_results

theorem V_u3 (c : Dev nD) :
    (V m c main_v5 : S2048x8192.Idx → Elt F .bf16) = truncf .bf16 (m ((c : Thread nD τ).loc main_arg6)) bitsLt_bf16_f32 := by
  show StableHlo.after hostOps0 (fun b => m (c, b)) (Proc.devRef .tc main_v5) = _
  after_results

theorem V_w2 (c : Dev nD) :
    (V m c main_v6 : S8192x2048.Idx → Elt F .bf16) = truncf .bf16 (m ((c : Thread nD τ).loc main_arg2)) bitsLt_bf16_f32 := by
  show StableHlo.after hostOps0 (fun b => m (c, b)) (Proc.devRef .tc main_v6) = _
  after_results

theorem V_u2 (c : Dev nD) :
    (V m c main_v7 : S8192x2048.Idx → Elt F .bf16) = truncf .bf16 (m ((c : Thread nD τ).loc main_arg5)) bitsLt_bf16_f32 := by
  show StableHlo.after hostOps0 (fun b => m (c, b)) (Proc.devRef .tc main_v7) = _
  after_results

/-- The gate column: the mask reshaped to 8192 × 1, each bit as a number. -/
theorem V_gate (c : Dev nD) :
    (V m c main_v9 : S8192x1.Idx → Elt F .f32)
      = uitofp .f32 (shapeCast S8192x1 (m ((c : Thread nD τ).loc main_arg7)) shapeCasts_S4x2048_S8192x1) := by
  show StableHlo.after hostOps0 (fun b => m (c, b)) (Proc.devRef .tc main_v9) = _
  after_results
  rfl

end Cert.KernelIdeal.Acc

end
-- ==== Proof.StepValue.lean ====
/-
  The accumulator update of one tile, read at an entry, over the extended reals.

  With exact arithmetic a change of float format is the identity and a matrix product into a zero
  accumulator is the plain sum of products.  So at row `r` and column `h` of the 512×2048 block

      step acc (r, h) = acc (r, h) + ( ∑ₖ hw(r,k) · W2ₜ(k,h)  +  ∑ₖ hu(r,k) · U2ₜ(k,h) ),   k < 256,

  with  hw(r,k) = s · σ(s) · s' · g,   s = ∑_d x(r,d)·W1ₜ(d,k),  s' = ∑_d x(r,d)·W3ₜ(d,k),  d < 2048,
  g the gate value of row `r`, σ the logistic function, and hu the same over U1ₜ, U3ₜ with the gate `1 − g`.
-/
import proofs.«125864_j17377437680119_2_alg».proof.Proof.KernelPieces
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.ValueIdx (ix2 eq_ix2)

namespace Cert.KernelIdeal.Acc

open Cert.KernelIdeal Cert.KernelIdeal.Gen

theorem proj_apply_l0 (i : S512x256.Idx) (q : dot_S512x2048_S2048x256_S512x256_1_0_0_1_n_n.contr.Idx) : (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem proj_apply_l1 (i : S512x256.Idx) (q : dot_S512x2048_S2048x256_S512x256_1_0_0_1_n_n.contr.Idx) : (dot_S512x2048_S2048x256_S512x256_1_0_0_1_n_n.lhsIdx i q 1).val = (q ⟨0, by decide⟩).val :=
  dot_S512x2048_S2048x256_S512x256_1_0_0_1_n_n.lhsIdx_val_of_single rfl i q
theorem proj_apply_r0 (i : S512x256.Idx) (q : dot_S512x2048_S2048x256_S512x256_1_0_0_1_n_n.contr.Idx) : (dot_S512x2048_S2048x256_S512x256_1_0_0_1_n_n.rhsIdx i q 0).val = (q ⟨0, by decide⟩).val :=
  dot_S512x2048_S2048x256_S512x256_1_0_0_1_n_n.rhsIdx_val_of_single rfl i q
theorem proj_apply_r1 (i : S512x256.Idx) (q : dot_S512x2048_S2048x256_S512x256_1_0_0_1_n_n.contr.Idx) : (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- Tokens times a column tile, at (r, q): the sum over the 2048 hidden features. -/
theorem proj_apply (a : FVec Ideal S512x2048 .bf16) (b : FVec Ideal S2048x256 .bf16) (r : Fin 512) (q : Fin 256) :
    matmul dot_S512x2048_S2048x256_S512x256_1_0_0_1_n_n none a b (constant S512x256 .f32 0x00000000#32) (ix2 r q) = ∑ d : Fin 2048, a (ix2 r d) * b (ix2 d q) := by
  refine (Ideal.matmul_constant_zero_apply dot_S512x2048_S2048x256_S512x256_1_0_0_1_n_n none a b (ix2 r q)).trans ?_
  rw [← Equiv.sum_comp (ValueIdx.contrEquiv1 dot_S512x2048_S2048x256_S512x256_1_0_0_1_n_n 2048 rfl rfl).symm]
  refine Finset.sum_congr rfl fun d _ => ?_
  have hk := ValueIdx.contrEquiv1_symm_val dot_S512x2048_S2048x256_S512x256_1_0_0_1_n_n 2048 rfl rfl d
  have el : dot_S512x2048_S2048x256_S512x256_1_0_0_1_n_n.lhsIdx (ix2 r q) ((ValueIdx.contrEquiv1 dot_S512x2048_S2048x256_S512x256_1_0_0_1_n_n 2048 rfl rfl).symm d) = ix2 r d :=
    funext fun x => Fin.ext (by
      match x with
      | ⟨0, _⟩ => exact proj_apply_l0 _ _
      | ⟨1, _⟩ => exact (proj_apply_l1 _ _).trans hk)
  have er : dot_S512x2048_S2048x256_S512x256_1_0_0_1_n_n.rhsIdx (ix2 r q) ((ValueIdx.contrEquiv1 dot_S512x2048_S2048x256_S512x256_1_0_0_1_n_n 2048 rfl rfl).symm d) = ix2 d q :=
    funext fun x => Fin.ext (by
      match x with
      | ⟨0, _⟩ => exact (proj_apply_r0 _ _).trans hk
      | ⟨1, _⟩ => exact proj_apply_r1 _ _)
  rw [el, er]

theorem down_apply_l0 (i : S512x2048.Idx) (q : dot_S512x256_S256x2048_S512x2048_1_0_0_1_n_n.contr.Idx) : (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem down_apply_l1 (i : S512x2048.Idx) (q : dot_S512x256_S256x2048_S512x2048_1_0_0_1_n_n.contr.Idx) : (dot_S512x256_S256x2048_S512x2048_1_0_0_1_n_n.lhsIdx i q 1).val = (q ⟨0, by decide⟩).val :=
  dot_S512x256_S256x2048_S512x2048_1_0_0_1_n_n.lhsIdx_val_of_single rfl i q
theorem down_apply_r0 (i : S512x2048.Idx) (q : dot_S512x256_S256x2048_S512x2048_1_0_0_1_n_n.contr.Idx) : (dot_S512x256_S256x2048_S512x2048_1_0_0_1_n_n.rhsIdx i q 0).val = (q ⟨0, by decide⟩).val :=
  dot_S512x256_S256x2048_S512x2048_1_0_0_1_n_n.rhsIdx_val_of_single rfl i q
theorem down_apply_r1 (i : S512x2048.Idx) (q : dot_S512x256_S256x2048_S512x2048_1_0_0_1_n_n.contr.Idx) : (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- Gated activations times a row tile, at (r, q): the sum over the tile's 256 intermediate features. -/
theorem down_apply (a : FVec Ideal S512x256 .bf16) (b : FVec Ideal S256x2048 .bf16) (r : Fin 512) (q : Fin 2048) :
    matmul dot_S512x256_S256x2048_S512x2048_1_0_0_1_n_n none a b (constant S512x2048 .f32 0x00000000#32) (ix2 r q) = ∑ d : Fin 256, a (ix2 r d) * b (ix2 d q) := by
  refine (Ideal.matmul_constant_zero_apply dot_S512x256_S256x2048_S512x2048_1_0_0_1_n_n none a b (ix2 r q)).trans ?_
  rw [← Equiv.sum_comp (ValueIdx.contrEquiv1 dot_S512x256_S256x2048_S512x2048_1_0_0_1_n_n 256 rfl rfl).symm]
  refine Finset.sum_congr rfl fun d _ => ?_
  have hk := ValueIdx.contrEquiv1_symm_val dot_S512x256_S256x2048_S512x2048_1_0_0_1_n_n 256 rfl rfl d
  have el : dot_S512x256_S256x2048_S512x2048_1_0_0_1_n_n.lhsIdx (ix2 r q) ((ValueIdx.contrEquiv1 dot_S512x256_S256x2048_S512x2048_1_0_0_1_n_n 256 rfl rfl).symm d) = ix2 r d :=
    funext fun x => Fin.ext (by
      match x with
      | ⟨0, _⟩ => exact down_apply_l0 _ _
      | ⟨1, _⟩ => exact (down_apply_l1 _ _).trans hk)
  have er : dot_S512x256_S256x2048_S512x2048_1_0_0_1_n_n.rhsIdx (ix2 r q) ((ValueIdx.contrEquiv1 dot_S512x256_S256x2048_S512x2048_1_0_0_1_n_n 256 rfl rfl).symm d) = ix2 d q :=
    funext fun x => Fin.ext (by
      match x with
      | ⟨0, _⟩ => exact (down_apply_r0 _ _).trans hk
      | ⟨1, _⟩ => exact down_apply_r1 _ _)
  rw [el, er]

/-- The gate column [512, 1] spread along the 256 features of a tile: row `r`'s value everywhere in row `r`. -/
theorem gate_apply (g : FVec Ideal S512x1 .f32) (r : Fin 512) (k : Fin 256) :
    broadcastTo S512x256 g broadcasts_S512x1_S512x256 (ix2 r k) = g (ix2 r 0) :=
  broadcastTo_apply g broadcasts_S512x1_S512x256 (ix2 r k) (ix2 r 0) (fun a => by
    match a with
    | ⟨0, _⟩ => show r.val = if (512 : Nat) = 1 then 0 else r.val; rw [if_neg (by decide)]
    | ⟨1, _⟩ => show 0 = if (1 : Nat) = 1 then 0 else k.val; rw [if_pos rfl])

/-- Tokens times a column tile at (r, k). -/
def proj (x : Vec Ideal S512x2048 .bf16) (w : Vec Ideal S2048x256 .bf16) (r : Fin 512) (k : Fin 256) : EReal :=
  ∑ d : Fin 2048, x (ix2 r d) * w (ix2 d k)

/-- One branch's gated activation at (r, k): `s · σ(s) · s' · g`. -/
def gated (x : Vec Ideal S512x2048 .bf16) (wa wb : Vec Ideal S2048x256 .bf16) (g : EReal) (r : Fin 512) (k : Fin 256) : EReal :=
  proj x wa r k * Ideal.logistic (proj x wa r k) * proj x wb r k * g

/-- The first branch's activations (gate `g`), as the body computes them, at (r, k). -/
theorem pay5_apply (x0 : Vec Ideal S512x2048 .bf16) (x7 : Vec Ideal S512x1 .f32) (x1 x2 : Vec Ideal S2048x256 .bf16) (r : Fin 512) (k : Fin 256) :
    k0_pay5 (F := Ideal) x0 x7 x1 x2 (ix2 r k) = gated x0 x1 x2 (x7 (ix2 r 0)) r k := by
  unfold k0_pay5 k0_pay3 k0_pay4
  simp only [shapeCast_self]
  rw [ValueIdx.truncf_apply, ValueIdx.mulf_apply, ValueIdx.mulf_apply, ValueIdx.mulf_apply]
  show _ * Ideal.logistic _ * _ * _ = _
  rw [proj_apply x0 x1 r k, proj_apply x0 x2 r k, gate_apply x7 r k]
  rfl

/-- The second branch's activations (gate `1 − g`), at (r, k). -/
theorem pay6_apply (x0 : Vec Ideal S512x2048 .bf16) (x7 : Vec Ideal S512x1 .f32) (x3 x4 : Vec Ideal S2048x256 .bf16) (r : Fin 512) (k : Fin 256) :
    k0_pay6 (F := Ideal) x0 x7 x3 x4 (ix2 r k) = gated x0 x3 x4 (Ideal.ofBits .f32 0x3F800000#32 - x7 (ix2 r 0)) r k := by
  unfold k0_pay6 k0_pay3 k0_pay4
  simp only [shapeCast_self]
  rw [ValueIdx.truncf_apply, ValueIdx.mulf_apply, ValueIdx.mulf_apply, ValueIdx.mulf_apply]
  show _ * Ideal.logistic _ * _ * _ = _
  rw [proj_apply x0 x3 r k, proj_apply x0 x4 r k, gate_apply _ r k]
  rfl

/-- The update at (r, h): the incoming accumulator plus the tile's two contributions. -/
theorem step_apply (x0 : Vec Ideal S512x2048 .bf16) (x1 x2 x3 x4 : Vec Ideal S2048x256 .bf16) (x5 x6 : Vec Ideal S256x2048 .bf16)
    (x7 : Vec Ideal S512x1 .f32) (acc : Vec Ideal S512x2048 .f32) (r : Fin 512) (h : Fin 2048) :
    step (F := Ideal) x0 x1 x2 x3 x4 x5 x6 x7 acc (ix2 r h)
      = acc (ix2 r h) + ((∑ k : Fin 256, gated x0 x1 x2 (x7 (ix2 r 0)) r k * x5 (ix2 k h))
          + (∑ k : Fin 256, gated x0 x3 x4 (Ideal.ofBits .f32 0x3F800000#32 - x7 (ix2 r 0)) r k * x6 (ix2 k h))) := by
  unfold step k0_pay1 k0_pay7
  simp only [shapeCast_self]
  rw [ValueIdx.addf_apply, ValueIdx.addf_apply, down_apply, down_apply]
  simp only [pay5_apply, pay6_apply]

end Cert.KernelIdeal.Acc

end
-- ==== Proof.TileValue.lean ====
/-
  One tile's update in terms of the whole arrays.

  If the body's eight input blocks are the rows of row block `b` and the columns / rows of tile `i` of
  the whole arrays X, W1, W3, U1, U3, W2, U2 and of the gate column G, then the update at local row `r`
  and column `h` adds exactly the two gated tile contributions of token `row b r`:

      step acc (r, h) = acc (r, h) + ( tile₁(g) + tile₂(1 − g) ),     g = G (row b r).
-/
import proofs.«125864_j17377437680119_2_alg».proof.Proof.StepValue
import proofs.«125864_j17377437680119_2_alg».proof.Proof.Spec

set_option maxRecDepth 16384

noncomputable section

open Idealize.ShloMosaic Idealize.ShloMosaic.TcCoe Idealize.SL.Sem
open Idealize.ShloMosaic.ValueIdx (ix2 eq_ix2)
open Cert.GatedFFN (row col pre act tile)

namespace Cert.KernelIdeal.Acc

open Cert.KernelIdeal Cert.KernelIdeal.Gen

theorem step_tile (x0 : Vec Ideal S512x2048 .bf16) (x1 x2 x3 x4 : Vec Ideal S2048x256 .bf16) (x5 x6 : Vec Ideal S256x2048 .bf16)
    (x7 : Vec Ideal S512x1 .f32) (acc : Vec Ideal S512x2048 .f32)
    (X : Fin 8192 → Fin 2048 → EReal) (W1 W3 U1 U3 : Fin 2048 → Fin 8192 → EReal) (W2 U2 : Fin 8192 → Fin 2048 → EReal)
    (G : Fin 8192 → EReal) (b i : ℕ)
    (h0 : ∀ (r : Fin 512) (d : Fin 2048), x0 (ix2 r d) = X (row b r) d)
    (h1 : ∀ (d : Fin 2048) (k : Fin 256), x1 (ix2 d k) = W1 d (col i k))
    (h2 : ∀ (d : Fin 2048) (k : Fin 256), x2 (ix2 d k) = W3 d (col i k))
    (h3 : ∀ (d : Fin 2048) (k : Fin 256), x3 (ix2 d k) = U1 d (col i k))
    (h4 : ∀ (d : Fin 2048) (k : Fin 256), x4 (ix2 d k) = U3 d (col i k))
    (h5 : ∀ (k : Fin 256) (h : Fin 2048), x5 (ix2 k h) = W2 (col i k) h)
    (h6 : ∀ (k : Fin 256) (h : Fin 2048), x6 (ix2 k h) = U2 (col i k) h)
    (h7 : ∀ r : Fin 512, x7 (ix2 r 0) = G (row b r))
    (r : Fin 512) (h : Fin 2048) :
    step (F := Ideal) x0 x1 x2 x3 x4 x5 x6 x7 acc (ix2 r h)
      = acc (ix2 r h) + (tile X W1 W3 W2 (G (row b r)) i (row b r) h
          + tile X U1 U3 U2 (Ideal.ofBits .f32 0x3F800000#32 - G (row b r)) i (row b r) h) := by
  rw [step_apply]
  simp only [gated, proj, h0, h1, h2, h3, h4, h5, h6, h7]
  rfl

end Cert.KernelIdeal.Acc

end
-- ==== Proof.Closed.lean ====
/-
  The accumulator in closed form, over the extended reals.

  Writing X for the tokens (the first argument read as 8192 × 2048), W1 W3 W2 and U1 U3 U2 for the two
  branches' weights and g(R) ∈ {0, 1} for the mask bit of token R as a number, the accumulator after grid
  point `n` holds, at local row `r` and column `h`,

      ∑_{i ≤ n % 32} ( tile₁(g) i + tile₂(1 − g) i )     of token R = 512·(n / 32) + r:

  the reset at the first tile of a row block contributes the exact zero, and each further point adds its tile.
-/
import proofs.«125864_j17377437680119_2_alg».proof.Proof.Blocks
import proofs.«125864_j17377437680119_2_alg».proof.Proof.TileValue

set_option maxRecDepth 16384

noncomputable section

open Idealize.ShloMosaic Idealize.ShloMosaic.TcCoe Idealize.SL.Sem
open Idealize.ShloMosaic.ValueIdx (ix2 eq_ix2)
open Cert.GatedFFN (row col pre act tile partialSum)

namespace Cert.KernelIdeal.Acc

open Cert.KernelIdeal Cert.KernelIdeal.Gen

variable (m : (ℓ : Loc nD τ sig) → Buf (Elt Ideal) ℓ)

/-- The tokens: the first argument read as an 8192 × 2048 matrix. -/
def Xg (c : Dev nD) : Fin 8192 → Fin 2048 → EReal := fun a b =>
  shapeCast S8192x2048 (m ((c : Thread nD τ).loc main_arg0)) shapeCasts_S4x2048x2048_S8192x2048 (ix2 a b)
/-- The first branch's weights. -/
def W1g (c : Dev nD) : Fin 2048 → Fin 8192 → EReal := fun a b => (m ((c : Thread nD τ).loc main_arg1)) (ix2 a b)
def W2g (c : Dev nD) : Fin 8192 → Fin 2048 → EReal := fun a b => (m ((c : Thread nD τ).loc main_arg2)) (ix2 a b)
def W3g (c : Dev nD) : Fin 2048 → Fin 8192 → EReal := fun a b => (m ((c : Thread nD τ).loc main_arg3)) (ix2 a b)
/-- The second branch's weights. -/
def U1g (c : Dev nD) : Fin 2048 → Fin 8192 → EReal := fun a b => (m ((c : Thread nD τ).loc main_arg4)) (ix2 a b)
def U2g (c : Dev nD) : Fin 8192 → Fin 2048 → EReal := fun a b => (m ((c : Thread nD τ).loc main_arg5)) (ix2 a b)
def U3g (c : Dev nD) : Fin 2048 → Fin 8192 → EReal := fun a b => (m ((c : Thread nD τ).loc main_arg6)) (ix2 a b)
/-- Token R's mask bit: the mask read as a column of 8192 bits. -/
def Mg (c : Dev nD) : Fin 8192 → BitVec 1 := fun a =>
  shapeCast S8192x1 (m ((c : Thread nD τ).loc main_arg7)) shapeCasts_S4x2048_S8192x1 (ix2 a 0)
/-- That bit as a number, 0 or 1. -/
def Gg (c : Dev nD) : Fin 8192 → EReal := fun a => (((Mg m c a).toNat : ℝ) : EReal)

/-- The update of point `t` at (r, h): the two gated contributions of tile `t % 32` for token `row (t / 32) r`. -/
theorem stepAt_apply (c : Dev nD) (t : Fin cfg0.N) (a : Vec Ideal S512x2048 .f32) (r : Fin 512) (h : Fin 2048) :
    stepAt m c t a (ix2 r h)
      = a (ix2 r h) + (tile (Xg m c) (W1g m c) (W3g m c) (W2g m c) (Gg m c (row (t.val / 32) r)) (t.val % 32) (row (t.val / 32) r) h
          + tile (Xg m c) (U1g m c) (U3g m c) (U2g m c) (Ideal.ofBits .f32 0x3F800000#32 - Gg m c (row (t.val / 32) r)) (t.val % 32) (row (t.val / 32) r) h) :=
  step_tile (iblk m c 0 t) (iblk m c 1 t) (iblk m c 2 t) (iblk m c 3 t) (iblk m c 4 t) (iblk m c 5 t) (iblk m c 6 t) (iblk m c 7 t) a
    (Xg m c) (W1g m c) (W3g m c) (U1g m c) (U3g m c) (W2g m c) (U2g m c) (Gg m c) (t.val / 32) (t.val % 32)
    (fun r d => (blk0 m c t r d).trans (congrFun (V_x m c) _))
    (fun d k => (blk1 m c t d k).trans (congrFun (V_w1 m c) _))
    (fun d k => (blk2 m c t d k).trans (congrFun (V_w3 m c) _))
    (fun d k => (blk3 m c t d k).trans (congrFun (V_u1 m c) _))
    (fun d k => (blk4 m c t d k).trans (congrFun (V_u3 m c) _))
    (fun k h => (blk5 m c t k h).trans (congrFun (V_w2 m c) _))
    (fun k h => (blk6 m c t k h).trans (congrFun (V_u2 m c) _))
    (fun r => (blk7 m c t r).trans (congrFun (V_gate m c) _))
    r h

/-- The accumulator after point `n`, entry by entry: the partial sum over the tiles done so far. -/
theorem accAt_apply (c : Dev nD) : ∀ (n : ℕ) (hn : n < cfg0.N) (r : Fin 512) (h : Fin 2048),
    accAt m c n hn (ix2 r h)
      = partialSum (Xg m c) (W1g m c) (W3g m c) (W2g m c) (U1g m c) (U3g m c) (U2g m c) (Ideal.ofBits .f32 0x3F800000#32) (Gg m c (row (n / 32) r)) (n % 32) (row (n / 32) r) h
  | 0, hn, r, h => by
    rw [accAt, stepAt_apply]
    show Ideal.ofBits .f32 0x00000000#32 + _ = _
    rw [Ideal.ofBits_zero_f32, zero_add]
    unfold partialSum
    show _ = ∑ i ∈ Finset.range 1, _
    rw [Finset.sum_range_one]
    rfl
  | n + 1, hn, r, h => by
    by_cases h0 : (n + 1) % 32 = 0
    · rw [accAt, if_pos h0, stepAt_apply]
      show Ideal.ofBits .f32 0x00000000#32 + _ = _
      rw [Ideal.ofBits_zero_f32, zero_add]
      unfold partialSum
      dsimp only
      rw [h0, Finset.sum_range_one]
    · have e1 : (n + 1) / 32 = n / 32 := by omega
      have e2 : (n + 1) % 32 = n % 32 + 1 := by omega
      rw [accAt, if_neg h0, stepAt_apply, accAt_apply c n (Nat.lt_of_succ_lt hn) r h]
      unfold partialSum
      dsimp only
      rw [e1, e2, Finset.sum_range_succ _ (n % 32 + 1)]

end Cert.KernelIdeal.Acc

end
-- ==== Proof.MaskIdx.lean ====
/-
  Where token R's mask bit sits in the 4 × 2048 mask: batch `R / 2048`, position `R % 2048`
  (the tokens are the batch-major flattening of batch × position).
-/
import Idealize.ShloMosaic.Lib.ValueIdx

open Idealize.ShloMosaic
open Idealize.ShloMosaic.ValueIdx (ix2)

namespace Cert.GatedFFN

/-- Token `R`'s index in the 4 × 2048 mask. -/
def maskIdx (R : Fin 8192) : (⟨2, ![4, 2048]⟩ : Shape).Idx :=
  ix2 (⟨R.val / 2048, by have := R.isLt; omega⟩ : Fin 4) (⟨R.val % 2048, Nat.mod_lt _ (by decide)⟩ : Fin 2048)

end Cert.GatedFFN
-- ==== Proof.Final.lean ====
/-
  From the output blocks to the program's result.

  The output block of row block `b` is written back once, after the last tile (grid point `32·b + 31`),
  and then holds the full 32-tile sum for its 512 tokens.  The 16 blocks tile the 8192 × 2048 output
  array, so after the region the array holds, at token R and feature h, the 32-tile sum of token R —
  which is the branch token R's mask bit selects.  The host then only reshapes that array to
  4 × 2048 × 2048.
-/
import proofs.«125864_j17377437680119_2_alg».proof.Proof.Closed
import proofs.«125864_j17377437680119_2_alg».proof.Proof.MaskIdx
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx (ix2 eq_ix2)
open Cert.GatedFFN (row col pre act tile partialSum branch partialSum_select maskIdx)

namespace Cert.KernelIdeal.Acc

open Cert.KernelIdeal Cert.KernelIdeal.Gen

variable (m : (ℓ : Loc nD τ sig) → Buf (Elt Ideal) ℓ) (ρ : Dev nD → PrngReg)

/-- The output array after the region: at (R, h) the sum over all 32 tiles of token R's two gated contributions. -/
def Kout (c : Dev nD) : S8192x2048.Idx → EReal := fun j =>
  partialSum (Xg m c) (W1g m c) (W3g m c) (W2g m c) (U1g m c) (U3g m c) (U2g m c) (Ideal.ofBits .f32 0x3F800000#32) (Gg m c (j 0)) 31 (j 0) (j 1)

/-- At the last tile of row block `t / 32` the accumulator's entry (r, q) is `Kout` at token `row (t / 32) r`. -/
theorem out_entry (c : Dev nD) (t : Fin cfg0.N) (h31 : t.val % 32 = 31) (r : Fin 512) (q : Fin 2048) :
    accAt m c t.val t.isLt (ix2 r q) = Kout m c (ix2 (row (t.val / 32) r) q) := by
  show _ = partialSum (Xg m c) (W1g m c) (W3g m c) (W2g m c) (U1g m c) (U3g m c) (U2g m c) (Ideal.ofBits .f32 0x3F800000#32) (Gg m c (row (t.val / 32) r)) 31 (row (t.val / 32) r) q
  rw [accAt_apply, h31]

/-- What the write-back of a row block's last point writes is that block of `Kout`. -/
theorem flushed_eq (c : Dev nD) (t : Fin cfg0.N) (hf : (cfg0.win 8).flush t = true) :
    (dats m 0 c).flushed 8 t = ((cfg0.win 8).blk t).view.read (Elt Ideal) (Kout m c) := by
  have h31 : t.val % 32 = 31 := (flush0_8 t).mp hf
  have hN : cfg0.N = 512 := N_0
  have ht := t.isLt
  show (cfg0.win 8).cut (grid0.coords t) ((dats m 0 c).after 8 t) = _
  rw [after0_8, out_eq m c t.val t.isLt h31]
  refine funext fun (y : S512x2048.Idx) => ?_
  show accAt m c t.val t.isLt y = Kout m c (((cfg0.win 8).blk t).view.emb y)
  have hy : ((cfg0.win 8).blk t).view.emb y = ix2 (row (t.val / 32) (y 0)) (y 1) := funext fun a => Fin.ext (by
    match a with
    | ⟨0, _⟩ =>
      show win0_8.index t 0 * 512 + 1 * (y 0).val = 512 * ((t.val / 32) % 16) + (y 0).val
      rw [(idx_facts t).2.2.2.2.2.2.2.2.1]; omega
    | ⟨1, _⟩ =>
      show win0_8.index t 1 * 2048 + 1 * (y 1).val = (y 1).val
      rw [(idx_facts t).2.2.2.2.2.2.2.2.2]; omega)
  rw [hy]
  exact (congrArg (accAt m c t.val t.isLt) (eq_ix2 y)).trans (out_entry m c t h31 (y 0) (y 1))

/-- An entry of the array lies in point `t`'s output block iff each coordinate lies in the block's range. -/
theorem mem_blk (t : Fin cfg0.N) (i : S8192x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v10).slice (win0_8.rect t)).set ↔ _
  rw [View.set_slice_whole, Rect.mem_set_unit]
  exact Iff.rfl

/-- The sixteen written-back blocks cover the array, so it ends at `Kout`. -/
theorem final (c : Dev nD) : (dats m 0 c).arrAt 8 cfg0.N = Kout m c :=
  (dats m 0 c).arrAt_eq_of_cover 8 (Kout m c) (flushed_eq m c) fun i => by
    have hi0 : (i 0).val < 8192 := (i 0).isLt
    have hi1 : (i 1).val < 2048 := (i 1).isLt
    have hN : cfg0.N = 512 := N_0
    have hlt : 32 * ((i 0).val / 512) + 31 < cfg0.N := by omega
    refine ⟨⟨32 * ((i 0).val / 512) + 31, hlt⟩, (flush0_8 _).mpr (by show (32 * ((i 0).val / 512) + 31) % 32 = 31; omega), ?_⟩
    rw [mem_blk]
    have f0 := (idx_facts ⟨32 * ((i 0).val / 512) + 31, hlt⟩).2.2.2.2.2.2.2.2.1
    have f1 := (idx_facts ⟨32 * ((i 0).val / 512) + 31, hlt⟩).2.2.2.2.2.2.2.2.2
    intro a
    match a with
    | ⟨0, _⟩ =>
      show win0_8.index ⟨32 * ((i 0).val / 512) + 31, hlt⟩ 0 * 512 ≤ (i 0).val ∧ (i 0).val < win0_8.index ⟨32 * ((i 0).val / 512) + 31, hlt⟩ 0 * 512 + 512
      rw [f0]
      show (32 * ((i 0).val / 512) + 31) / 32 * 512 ≤ (i 0).val ∧ (i 0).val < (32 * ((i 0).val / 512) + 31) / 32 * 512 + 512
      omega
    | ⟨1, _⟩ =>
      show win0_8.index ⟨32 * ((i 0).val / 512) + 31, hlt⟩ 1 * 2048 ≤ (i 1).val ∧ (i 1).val < win0_8.index ⟨32 * ((i 0).val / 512) + 31, hlt⟩ 1 * 2048 + 2048
      rw [f1]
      omega

/-- Token R's bit, read off the mask reshaped to a column, is the mask's entry at batch `R / 2048`, position `R % 2048`. -/
theorem Mg_eq (c : Dev nD) (R : Fin 8192) : Mg m c R = m ((c : Thread nD τ).loc main_arg7) (maskIdx R) := by
  unfold Mg
  exact shapeCast_apply _ shapeCasts_S4x2048_S8192x1 (ix2 R 0) (maskIdx R)
    (by rewrite [Shape.rowMajor_val_two, Shape.rowMajor_val_two]; show R.val / 2048 * 2048 + R.val % 2048 = R.val * 1 + 0; omega)

/-- So the array's entry at (R, h) is the branch the bit selects. -/
theorem Kout_apply (c : Dev nD) (R : Fin 8192) (h : Fin 2048) :
    Kout m c (ix2 R h) = Scalar.select (m ((c : Thread nD τ).loc main_arg7) (maskIdx R))
      (branch (Xg m c) (W1g m c) (W3g m c) (W2g m c) R h) (branch (Xg m c) (U1g m c) (U3g m c) (U2g m c) R h) := by
  show partialSum (Xg m c) (W1g m c) (W3g m c) (W2g m c) (U1g m c) (U3g m c) (U2g m c) (Ideal.ofBits .f32 0x3F800000#32) (Gg m c R) 31 R h = _
  unfold Gg
  rw [partialSum_select, Mg_eq]

/-- The program's result: the trailing reshape of the array the region leaves. -/
theorem tail_eq (c : Dev nD) :
    Pipeline.afterTail₀ cfgs (dats m) 0 (V0 m) [hostOps1] c main_v11
      = shapeCast S4x2048x2048 (Kout m c) shapeCasts_S8192x2048_S4x2048x2048 := by
  unfold Pipeline.afterTail₀
  show StableHlo.after hostOps1 _ (Proc.devRef .tc main_v11) = _
  after_results
  exact congrArg (fun a => shapeCast S4x2048x2048 a shapeCasts_S8192x2048_S4x2048x2048)
    ((Pipeline.withArrays_arr spec0 launch0.win.arr_inj c _ _ 8).trans (final m c))

/-- THE RUN, READ: every weakly fair execution ends with the result at the reshape of `Kout` and the arguments unchanged. -/
theorem run : θ_run defs (onTc (τ := τ) (main (F := Ideal))) ⟨m, fun _ => 0, ρ⟩ fun r => ∀ c : Dev nD,
      r.2.mem ((c.tc : Thread nD τ).loc main_v11) = shapeCast S4x2048x2048 (Kout m c) shapeCasts_S8192x2048_S4x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v11 (Pipeline.mem_restRefs_of main_v11 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Acc

end
-- ==== Proof.RefStages.lean ====
/-
  The reference program, entry by entry, is the specification.

  The reference reshapes the tokens to 8192 × 2048, forms each branch as
  `((s · (1 / (1 + e^(−s)))) · s') · C` with `s = X·A`, `s' = X·B` — the logistic function written out —
  and selects per token by the mask bit.  Read at row R and column h, the matrix products are plain
  sums over the extended reals, the written-out logistic is the logistic function, and the mask bit
  broadcast along the row is token R's bit.
-/
import proofs.«125864_j17377437680119_2_alg».proof.Proof.Gen.ReferenceIdeal.Read
import proofs.«125864_j17377437680119_2_alg».proof.Proof.Spec
import proofs.«125864_j17377437680119_2_alg».proof.Proof.MaskIdx

set_option maxRecDepth 16384

noncomputable section

open Idealize.ShloMosaic Idealize.ShloMosaic.TcCoe Idealize.SL.Sem
open Idealize.ShloMosaic.ValueIdx (ix1 ix2 eq_ix2)
open Cert.GatedFFN (pre branch ofBits_one)

namespace Cert.ReferenceIdeal.RefValue

open Cert.ReferenceIdeal Cert.ReferenceIdeal.Gen Cert.ReferenceIdeal.Read

/-- The reshaped tokens as a function of (token, feature). -/
def Xr (x0 : (⟨S4x2048x2048, .f32⟩ : BufTy).Contents (Elt Ideal)) : Fin 8192 → Fin 2048 → EReal := fun a b => val_main_v0 (F := Ideal) x0 (ix2 a b)
/-- A 2048 × 8192 matrix as a function of its two coordinates. -/
def up (w : (⟨S2048x8192, .f32⟩ : BufTy).Contents (Elt Ideal)) : Fin 2048 → Fin 8192 → EReal := fun a b => w (ix2 a b)
/-- An 8192 × 2048 matrix as a function of its two coordinates. -/
def down (w : (⟨S8192x2048, .f32⟩ : BufTy).Contents (Elt Ideal)) : Fin 8192 → Fin 2048 → EReal := fun a b => w (ix2 a b)

/-- The written-out `s · (1 / (1 + e^(−s)))` is `s · σ(s)`. -/
theorem silu_eq (s : EReal) :
    s * Ideal.div (Ideal.ofBits .f32 0x3F800000#32) (Ideal.ofBits .f32 0x3F800000#32 + Ideal.exp (-s)) = s * Ideal.logistic s := by
  rw [ofBits_one]; rfl

/-- The first branch of the reference at (R, h). -/
theorem branch_w (x0 : (⟨S4x2048x2048, .f32⟩ : BufTy).Contents (Elt Ideal)) (x1 : (⟨S2048x8192, .f32⟩ : BufTy).Contents (Elt Ideal)) (x2 : (⟨S8192x2048, .f32⟩ : BufTy).Contents (Elt Ideal)) (x3 : (⟨S2048x8192, .f32⟩ : BufTy).Contents (Elt Ideal))
    (R : Fin 8192) (h : Fin 2048) :
    val_main_v7 (F := Ideal) x0 x1 x2 x3 (ix2 R h) = branch (Xr x0) (up x1) (up x3) (down x2) R h := by
  rw [val_main_v7_apply]
  unfold branch
  refine Finset.sum_congr rfl fun j _ => ?_
  have el : lidx_main_v7 (ix2 R h) j = ix2 R j := funext fun a => Fin.ext (by match a with | ⟨0, _⟩ => rfl | ⟨1, _⟩ => rfl)
  have er : ridx_main_v7 (ix2 R h) j = ix2 j h := funext fun a => Fin.ext (by match a with | ⟨0, _⟩ => rfl | ⟨1, _⟩ => rfl)
  have e3l : ∀ k, lidx_main_v3 (ix2 R j) k = ix2 R k := fun k => funext fun a => Fin.ext (by match a with | ⟨0, _⟩ => rfl | ⟨1, _⟩ => rfl)
  have e3r : ∀ k, ridx_main_v3 (ix2 R j) k = ix2 k j := fun k => funext fun a => Fin.ext (by match a with | ⟨0, _⟩ => rfl | ⟨1, _⟩ => rfl)
  have e5l : ∀ k, lidx_main_v5 (ix2 R j) k = ix2 R k := fun k => funext fun a => Fin.ext (by match a with | ⟨0, _⟩ => rfl | ⟨1, _⟩ => rfl)
  have e5r : ∀ k, ridx_main_v5 (ix2 R j) k = ix2 k j := fun k => funext fun a => Fin.ext (by match a with | ⟨0, _⟩ => rfl | ⟨1, _⟩ => rfl)
  rw [el, er, val_main_v6_apply, val_main_v4_apply, val_main_call0_v5_apply, val_main_call0_v4_apply, val_main_call0_cst_0_apply,
    val_main_call0_v3_apply, val_main_call0_v2_apply, val_main_call0_cst_apply, val_main_call0_v1_apply, val_main_call0_v0_apply,
    val_main_v3_apply, val_main_v5_apply]
  simp only [e3l, e3r, e5l, e5r, Ideal.mulf_def, Ideal.hostDivf_def, Ideal.addf_def, Ideal.hostUnary_exp_def, Ideal.hostNegf_def,
    Ideal.negf_def, Ideal.ofBits_def]
  rw [silu_eq]
  rfl

/-- The second branch of the reference at (R, h). -/
theorem branch_u (x0 : (⟨S4x2048x2048, .f32⟩ : BufTy).Contents (Elt Ideal)) (x4 : (⟨S2048x8192, .f32⟩ : BufTy).Contents (Elt Ideal)) (x5 : (⟨S8192x2048, .f32⟩ : BufTy).Contents (Elt Ideal)) (x6 : (⟨S2048x8192, .f32⟩ : BufTy).Contents (Elt Ideal))
    (R : Fin 8192) (h : Fin 2048) :
    val_main_v12 (F := Ideal) x0 x4 x5 x6 (ix2 R h) = branch (Xr x0) (up x4) (up x6) (down x5) R h := by
  rw [val_main_v12_apply]
  unfold branch
  refine Finset.sum_congr rfl fun j _ => ?_
  have el : lidx_main_v12 (ix2 R h) j = ix2 R j := funext fun a => Fin.ext (by match a with | ⟨0, _⟩ => rfl | ⟨1, _⟩ => rfl)
  have er : ridx_main_v12 (ix2 R h) j = ix2 j h := funext fun a => Fin.ext (by match a with | ⟨0, _⟩ => rfl | ⟨1, _⟩ => rfl)
  have e3l : ∀ k, lidx_main_v8 (ix2 R j) k = ix2 R k := fun k => funext fun a => Fin.ext (by match a with | ⟨0, _⟩ => rfl | ⟨1, _⟩ => rfl)
  have e3r : ∀ k, ridx_main_v8 (ix2 R j) k = ix2 k j := fun k => funext fun a => Fin.ext (by match a with | ⟨0, _⟩ => rfl | ⟨1, _⟩ => rfl)
  have e5l : ∀ k, lidx_main_v10 (ix2 R j) k = ix2 R k := fun k => funext fun a => Fin.ext (by match a with | ⟨0, _⟩ => rfl | ⟨1, _⟩ => rfl)
  have e5r : ∀ k, ridx_main_v10 (ix2 R j) k = ix2 k j := fun k => funext fun a => Fin.ext (by match a with | ⟨0, _⟩ => rfl | ⟨1, _⟩ => rfl)
  rw [el, er, val_main_v11_apply, val_main_v9_apply, val_main_call1_v5_apply, val_main_call1_v4_apply, val_main_call1_cst_0_apply,
    val_main_call1_v3_apply, val_main_call1_v2_apply, val_main_call1_cst_apply, val_main_call1_v1_apply, val_main_call1_v0_apply,
    val_main_v8_apply, val_main_v10_apply]
  simp only [e3l, e3r, e5l, e5r, Ideal.mulf_def, Ideal.hostDivf_def, Ideal.addf_def, Ideal.hostUnary_exp_def, Ideal.hostNegf_def,
    Ideal.negf_def, Ideal.ofBits_def]
  rw [silu_eq]
  rfl

/-- The mask bit the selection reads at (R, h) is token R's bit. -/
theorem mask_at (x7 : (⟨S4x2048, .i1⟩ : BufTy).Contents (Elt Ideal)) (R : Fin 8192) (h : Fin 2048) :
    val_main_call2_v0 (F := Ideal) x7 (ix2 R h) = x7 (Cert.GatedFFN.maskIdx R) := by
  rw [val_main_call2_v0_apply, val_main_v2_apply, val_main_v1_apply]
  exact congrArg x7 (funext fun a => Fin.ext (by match a with | ⟨0, _⟩ => rfl | ⟨1, _⟩ => rfl))

/-- THE REFERENCE'S RESULT (before its final reshape) at (R, h): the branch token R's bit selects. -/
theorem ref_entry (x0 : (⟨S4x2048x2048, .f32⟩ : BufTy).Contents (Elt Ideal)) (x1 : (⟨S2048x8192, .f32⟩ : BufTy).Contents (Elt Ideal)) (x2 : (⟨S8192x2048, .f32⟩ : BufTy).Contents (Elt Ideal))
    (x3 x4 : (⟨S2048x8192, .f32⟩ : BufTy).Contents (Elt Ideal)) (x5 : (⟨S8192x2048, .f32⟩ : BufTy).Contents (Elt Ideal)) (x6 : (⟨S2048x8192, .f32⟩ : BufTy).Contents (Elt Ideal))
    (x7 : (⟨S4x2048, .i1⟩ : BufTy).Contents (Elt Ideal)) (R : Fin 8192) (h : Fin 2048) :
    val_main_v13 (F := Ideal) x0 x1 x2 x3 x4 x5 x6 x7 (ix2 R h)
      = Scalar.select (x7 (Cert.GatedFFN.maskIdx R)) (branch (Xr x0) (up x1) (up x3) (down x2) R h)
          (branch (Xr x0) (up x4) (up x6) (down x5) R h) := by
  rw [val_main_v13_apply, mask_at, branch_w, branch_u]

end Cert.ReferenceIdeal.RefValue

end
-- ==== Proof.lean ====
/-
  A mask-gated pair of SwiGLU feed-forward branches, tiled on the accelerator, against its plain definition.

  The reference computes, for 8192 tokens of 2048 features, the two branches
  `(silu(X·W1) ∘ (X·W3))·W2` and `(silu(X·U1) ∘ (X·U3))·U2` over 8192 intermediate features and keeps, per
  token, the first where the token's mask bit is set and the second where it is not.  The kernel walks a
  16 × 32 grid: 16 blocks of 512 tokens, 32 tiles of 256 intermediate features; at every point it multiplies
  the first branch's activations by the bit (as 0 or 1) and the second's by one minus the bit, and adds both
  tiles' down-projections into an accumulator that is reset at the first tile of a token block and copied to
  the output block at the last.

  Over the extended reals, where a change of float format is the identity, the two results are equal entry by
  entry: a product with the gate 1 is unchanged, a product with the gate 0 is 0 whatever its other factor, and
  the sum over 8192 = 32 · 256 features is the sum over the tiles of the sums inside a tile.  Only
  commutativity and associativity of addition are used, so the finiteness of the inputs is never needed.

  The modules: Spec (the mathematics, with no program), KernelPieces / AccFold (what each grid point leaves in
  the accumulator, by induction on the point), StepValue / TileValue / Blocks / Closed (that accumulator entry by
  entry in terms of the argument arrays), Final (the output array, the trailing reshape, the run), RefStages
  (the reference entry by entry).  Here: the two results are one function, and the five claims.
-/
import proofs.«125864_j17377437680119_2_alg».proof.Defs
import proofs.«125864_j17377437680119_2_alg».proof.Proof.Gen.Kernel
import proofs.«125864_j17377437680119_2_alg».proof.Proof.Gen.Kernel.Frame
import proofs.«125864_j17377437680119_2_alg».proof.Proof.Gen.KernelIdeal
import proofs.«125864_j17377437680119_2_alg».proof.Proof.Gen.KernelIdeal.Frame
import proofs.«125864_j17377437680119_2_alg».proof.Proof.Gen.ReferenceIdeal
import proofs.«125864_j17377437680119_2_alg».proof.Proof.Gen.ReferenceIdeal.Run
import proofs.«125864_j17377437680119_2_alg».proof.Proof.Gen.ReferenceIdeal.Read
import proofs.«125864_j17377437680119_2_alg».proof.Proof.Gen.Pre_finite_inputs
import proofs.«125864_j17377437680119_2_alg».proof.Proof.Final
import proofs.«125864_j17377437680119_2_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx (ix2 eq_ix2)

/-- The reference's result on the kernel's arguments is the kernel's result: before the common final reshape both
    are, at token R and feature h, the branch that token R's mask bit selects. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = shapeCast Cert.KernelIdeal.S4x2048x2048 (Cert.KernelIdeal.Acc.Kout m c) Cert.KernelIdeal.Facts₀.shapeCasts_S8192x2048_S4x2048x2048 := by
  have e : Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = Cert.KernelIdeal.Acc.Kout m c := by
    funext j
    obtain ⟨R, h, rfl⟩ : ∃ (R : Fin 8192) (h : Fin 2048), j = ix2 R h := ⟨j 0, j 1, eq_ix2 j⟩
    rw [Cert.ReferenceIdeal.RefValue.ref_entry, Cert.KernelIdeal.Acc.Kout_apply]
    rfl
  unfold Cert.ReferenceIdeal.Read.val_main_v14
  rw [e]

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, the kernel ends at the reshape of its output array and the
    reference at its composed term of the same arguments: one function (`result_eq`). -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
